-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg15 : FVec F S10 .f32) (main_v63 : IVec S_ 1) (main_v67 : IVec S_ 1) : IVec S_ 1 :=
  let main_v68 : IVec S_ 1 := andi main_v63 main_v67
  let main_v69 : FVec F S10 .f32 := Host.absf main_arg15
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg12 : FVec F S64x64 .f32) (main_arg13 : FVec F S64 .f32) (main_arg14 : FVec F S10x64 .f32) (main_arg15 : FVec F S10 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S10x64 .f32 := Host.absf main_arg14
  let main_cst_24 : FVec F S_ .f32 := constant S_ .f32 0x7F800000#32
  let main_v65 : FVec F S10x64 .f32 := broadcastInDim S10x64 ![] bcast_S_S10x64 main_cst_24
  let main_v66 : IVec S10x64 1 := cmpf .olt main_v64 main_v65
  let main_c_25 : IVec S_ 1 := constantI S_ 1 1#1
  let main_v67 : IVec S_ 1 := (fun x v => Host.reduce IntOp.andi x v reducesTo_S10x64_S_d0_1 h_S_) main_v66 main_c_25
  fn_part4 (F := F) main_arg15 main_v63 main_v67

def fn_part2 {F : FTy → Type} [FloatOps F] (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S10x64 .f32) (main_arg15 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_v48 main_v49 main_v50

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S10x64 .f32) (main_arg15 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x64 .f32) (main_arg1 : IVec S2x1250000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S10x64 .f32) (main_arg15 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S10000x64 : Shape := ⟨2, ![10000, 64]⟩
abbrev S64x10 : Shape := ⟨2, ![64, 10]⟩
abbrev S1x10 : Shape := ⟨2, ![1, 10]⟩
abbrev S100000x10 : Shape := ⟨2, ![100000, 10]⟩
abbrev S10000x10 : Shape := ⟨2, ![10000, 10]⟩

abbrev nBuf : Space → Nat
  | .hbm => 112
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S10x64, .f32⟩
  | .hbm, ⟨15, _⟩ => ⟨S10, .f32⟩
  | .hbm, ⟨16, _⟩ => ⟨S1x1250000, .i32⟩
  | .hbm, ⟨17, _⟩ => ⟨S1250000, .i32⟩
  | .hbm, ⟨18, _⟩ => ⟨S1x1250000, .i32⟩
  | .hbm, ⟨19, _⟩ => ⟨S1250000, .i32⟩
  | .hbm, ⟨20, _⟩ => ⟨S_, .f32⟩
  | .hbm, ⟨21, _⟩ => ⟨S1250000, .f32⟩
  | .hbm, ⟨22, _⟩ => ⟨S_, .f32⟩
  | .hbm, ⟨23, _⟩ => ⟨S100000, .f32⟩
  | .hbm, ⟨24, _⟩ => ⟨S1250000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1250000, .i32⟩
  | .hbm, ⟨35, _⟩ => ⟨S1250000, .i1⟩
  | .hbm, ⟨36, _⟩ => ⟨S_, .i32⟩
  | .hbm, ⟨37, _⟩ => ⟨S1250000, .i32⟩
  | .hbm, ⟨38, _⟩ => ⟨S1250000, .i32⟩
  | .hbm, ⟨39, _⟩ => ⟨S1250000, .i32⟩
  | .hbm, ⟨40, _⟩ => ⟨S1250000x1, .i32⟩
  | .hbm, ⟨41, _⟩ => ⟨S1250000x64, .f32⟩
  | .hbm, ⟨42, _⟩ => ⟨S_, .f32⟩
  | .hbm, ⟨43, _⟩ => ⟨S100000x64, .f32⟩
  | .hbm, ⟨44, _⟩ => ⟨S1250000x1, .i32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S64x64, .f32⟩
  | .hbm, ⟨49, _⟩ => ⟨S64x64, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S1250000, .i32⟩
  | .hbm, ⟨54, _⟩ => ⟨S1250000, .i1⟩
  | .hbm, ⟨55, _⟩ => ⟨S_, .i32⟩
  | .hbm, ⟨56, _⟩ => ⟨S1250000, .i32⟩
  | .hbm, ⟨57, _⟩ => ⟨S1250000, .i32⟩
  | .hbm, ⟨58, _⟩ => ⟨S1250000, .i32⟩
  | .hbm, ⟨59, _⟩ => ⟨S1250000x1, .i32⟩
  | .hbm, ⟨60, _⟩ => ⟨S1250000x64, .f32⟩
  | .hbm, ⟨61, _⟩ => ⟨S_, .f32⟩
  | .hbm, ⟨62, _⟩ => ⟨S100000x64, .f32⟩
  | .hbm, ⟨63, _⟩ => ⟨S1250000x1, .i32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S64x64, .f32⟩
  | .hbm, ⟨68, _⟩ => ⟨S64x64, .f32⟩
  | .hbm, ⟨69, _⟩ => ⟨S1x64, .f32⟩
  | .hbm, ⟨70, _⟩ => ⟨S100000x64, .f32⟩
  | .hbm, ⟨71, _⟩ => ⟨S_, .i32⟩
  | .hbm, ⟨72, _⟩ => ⟨S1250000, .i32⟩
  | .hbm, ⟨73, _⟩ => ⟨S1250000, .i1⟩
  | .hbm, ⟨74, _⟩ => ⟨S_, .i32⟩
  | .hbm, ⟨75, _⟩ => ⟨S1250000, .i32⟩
  | .hbm, ⟨76, _⟩ => ⟨S1250000, .i32⟩
  | .hbm, ⟨77, _⟩ => ⟨S1250000, .i32⟩
  | .hbm, ⟨78, _⟩ => ⟨S1250000x1, .i32⟩
  | .hbm, ⟨79, _⟩ => ⟨S1250000x64, .f32⟩
  | .hbm, ⟨80, _⟩ => ⟨S_, .f32⟩
  | .hbm, ⟨81, _⟩ => ⟨S100000x64, .f32⟩
  | .hbm, ⟨82, _⟩ => ⟨S1250000x1, .i32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S64x64, .f32⟩
  | .hbm, ⟨87, _⟩ => ⟨S64x64, .f32⟩
  | .hbm, ⟨88, _⟩ => ⟨S1x64, .f32⟩
  | .hbm, ⟨89, _⟩ => ⟨S100000x64, .f32⟩
  | .hbm, ⟨90, _⟩ => ⟨S_, .i32⟩
  | .hbm, ⟨91, _⟩ => ⟨S1250000, .i32⟩
  | .hbm, ⟨92, _⟩ => ⟨S1250000, .i1⟩
  | .hbm, ⟨93, _⟩ => ⟨S_, .i32⟩
  | .hbm, ⟨94, _⟩ => ⟨S1250000, .i32⟩
  | .hbm, ⟨95, _⟩ => ⟨S1250000, .i32⟩
  | .hbm, ⟨96, _⟩ => ⟨S1250000, .i32⟩
  | .hbm, ⟨97, _⟩ => ⟨S1250000x1, .i32⟩
  | .hbm, ⟨98, _⟩ => ⟨S1250000x64, .f32⟩
  | .hbm, ⟨99, _⟩ => ⟨S_, .f32⟩
  | .hbm, ⟨100, _⟩ => ⟨S100000x64, .f32⟩
  | .hbm, ⟨101, _⟩ => ⟨S1250000x1, .i32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S64x64, .f32⟩
  | .hbm, ⟨106, _⟩ => ⟨S64x64, .f32⟩
  | .hbm, ⟨107, _⟩ => ⟨S1x64, .f32⟩
  | .hbm, ⟨108, _⟩ => ⟨S100000x64, .f32⟩
  | .hbm, ⟨109, _⟩ => ⟨S64x10, .f32⟩
  | .hbm, ⟨110, _⟩ => ⟨S1x10, .f32⟩
  | .hbm, ⟨111, _⟩ => ⟨S100000x10, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x10, .f32⟩
  | .local _ .vmem, ⟨39, _⟩ => ⟨S1x10, .f32⟩
  | .local _ .vmem, ⟨40, _⟩ => ⟨S10000x10, .f32⟩
  | .local _ .vmem, ⟨41, _⟩ => ⟨S10000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S10x64_S64x10_1_0 : S10x64.Transposes [1, 0] S64x10
  shapeCasts_S10_S1x10 : S10.ShapeCasts S1x10
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  dot_S10000x64_S64x10_S10000x10_1_0_0_1_n_n_wf : DotDims.WF S10000x64 S64x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x10.size a ≤ S64x10.size a
  hwx4_1 : ∀ i : grid4.Coords, EltTy.bits .f32 = 32 ∨ (Rect.block (s := S64x10) S64x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x10.size a ≤ S100000x10.size a
  hwx4_3 : ∀ i : grid4.Coords, EltTy.bits .f32 = 32 ∨ (Rect.block (s := S100000x10) S10000x10.size (cc4_transform_3 i) (hinb4_3 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S64x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S10000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S64x10 : Shape := ⟨2, ![64, 10]⟩
abbrev S100000x10 : Shape := ⟨2, ![100000, 10]⟩
abbrev S1x10 : Shape := ⟨2, ![1, 10]⟩

abbrev nBuf : Space → Nat
  | .hbm => 169
  | .vmem => 0
  | .smem => 0
  | _ => 0

abbrev hbmTy0_0 (i : Nat) : BufTy := match i % 128 with
  | 0 => ⟨S100000x64, .f32⟩
  | 1 => ⟨S2x1250000, .i32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S10x64, .f32⟩
  | 15 => ⟨S10, .f32⟩
  | 16 => ⟨S1x1250000, .i32⟩
  | 17 => ⟨S1250000, .i32⟩
  | 18 => ⟨S1x1250000, .i32⟩
  | 19 => ⟨S1250000, .i32⟩
  | 20 => ⟨S_, .i32⟩
  | 21 => ⟨S1250000, .i32⟩
  | 22 => ⟨S1250000, .i1⟩
  | 23 => ⟨S_, .i32⟩
  | 24 => ⟨S1250000, .i32⟩
  | 25 => ⟨S1250000, .i32⟩
  | 26 => ⟨S1250000, .i32⟩
  | 27 => ⟨S1250000x1, .i32⟩
  | 28 => ⟨S1250000x64, .f32⟩
  | 29 => ⟨S_, .f32⟩
  | 30 => ⟨S100000x64, .f32⟩
  | 31 => ⟨S1250000x1, .i32⟩
  | 32 => ⟨S100000x64, .f32⟩
  | 33 => ⟨S_, .f32⟩
  | 34 => ⟨S1250000, .f32⟩
  | 35 => ⟨S_, .f32⟩
  | 36 => ⟨S100000, .f32⟩
  | 37 => ⟨S1250000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S64x64, .f32⟩
  | 46 => ⟨S100000x64, .f32⟩
  | 47 => ⟨S64x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S_, .i32⟩
  | 57 => ⟨S1250000, .i32⟩
  | 58 => ⟨S1250000, .i1⟩
  | 59 => ⟨S_, .i32⟩
  | 60 => ⟨S1250000, .i32⟩
  | 61 => ⟨S1250000, .i32⟩
  | 62 => ⟨S1250000, .i32⟩
  | 63 => ⟨S1250000x1, .i32⟩
  | 64 => ⟨S1250000x64, .f32⟩
  | 65 => ⟨S_, .f32⟩
  | 66 => ⟨S100000x64, .f32⟩
  | 67 => ⟨S1250000x1, .i32⟩
  | 68 => ⟨S100000x64, .f32⟩
  | 69 => ⟨S_, .f32⟩
  | 70 => ⟨S1250000, .f32⟩
  | 71 => ⟨S_, .f32⟩
  | 72 => ⟨S100000, .f32⟩
  | 73 => ⟨S1250000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x64, .f32⟩
  | 80 => ⟨S100000x64, .f32⟩
  | 81 => ⟨S64x64, .f32⟩
  | 82 => ⟨S100000x64, .f32⟩
  | 83 => ⟨S64x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S_, .i32⟩
  | 93 => ⟨S1250000, .i32⟩
  | 94 => ⟨S1250000, .i1⟩
  | 95 => ⟨S_, .i32⟩
  | 96 => ⟨S1250000, .i32⟩
  | 97 => ⟨S1250000, .i32⟩
  | 98 => ⟨S1250000, .i32⟩
  | 99 => ⟨S1250000x1, .i32⟩
  | 100 => ⟨S1250000x64, .f32⟩
  | 101 => ⟨S_, .f32⟩
  | 102 => ⟨S100000x64, .f32⟩
  | 103 => ⟨S1250000x1, .i32⟩
  | 104 => ⟨S100000x64, .f32⟩
  | 105 => ⟨S_, .f32⟩
  | 106 => ⟨S1250000, .f32⟩
  | 107 => ⟨S_, .f32⟩
  | 108 => ⟨S100000, .f32⟩
  | 109 => ⟨S1250000x1, .i32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x64, .f32⟩
  | 116 => ⟨S100000x64, .f32⟩
  | 117 => ⟨S64x64, .f32⟩
  | 118 => ⟨S100000x64, .f32⟩
  | 119 => ⟨S64x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_1 (i : Nat) : BufTy := match i % 128 with
  | 0 => ⟨S_, .i32⟩
  | 1 => ⟨S1250000, .i32⟩
  | 2 => ⟨S1250000, .i1⟩
  | 3 => ⟨S_, .i32⟩
  | 4 => ⟨S1250000, .i32⟩
  | 5 => ⟨S1250000, .i32⟩
  | 6 => ⟨S1250000, .i32⟩
  | 7 => ⟨S1250000x1, .i32⟩
  | 8 => ⟨S1250000x64, .f32⟩
  | 9 => ⟨S_, .f32⟩
  | 10 => ⟨S100000x64, .f32⟩
  | 11 => ⟨S1250000x1, .i32⟩
  | 12 => ⟨S100000x64, .f32⟩
  | 13 => ⟨S_, .f32⟩
  | 14 => ⟨S1250000, .f32⟩
  | 15 => ⟨S_, .f32⟩
  | 16 => ⟨S100000, .f32⟩
  | 17 => ⟨S1250000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x64, .f32⟩
  | 24 => ⟨S100000x64, .f32⟩
  | 25 => ⟨S64x64, .f32⟩
  | 26 => ⟨S100000x64, .f32⟩
  | 27 => ⟨S64x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S64x10, .f32⟩
  | 37 => ⟨S100000x10, .f32⟩
  | 38 => ⟨S1x10, .f32⟩
  | 39 => ⟨S100000x10, .f32⟩
  | 40 => ⟨S100000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_c_10 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call2_cst : Ref sig .tc := ⟨.hbm, 125, rfl⟩
abbrev main_call2_v0 : Ref sig .tc := ⟨.hbm, 126, rfl⟩
abbrev main_v87 : Ref sig .tc := ⟨.hbm, 127, rfl⟩
abbrev main_c_16 : Ref sig .tc := ⟨.hbm, 128, rfl⟩
abbrev main_v88 : Ref sig .tc := ⟨.hbm, 129, rfl⟩
abbrev main_v89 : Ref sig .tc := ⟨.hbm, 130, rfl⟩
abbrev main_c_17 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_18 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_19 : Ref sig .tc := ⟨.hbm, 141, rfl⟩
abbrev main_v98 : Ref sig .tc := ⟨.hbm, 142, rfl⟩
abbrev main_cst_20 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_call3_cst : Ref sig .tc := ⟨.hbm, 161, rfl⟩
abbrev main_call3_v0 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S10x64_S64x10_1_0 : S10x64.Transposes [1, 0] S64x10
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.Layer.lean ====
/-
  A four-layer mean-aggregating graph network followed by a linear read-out, over 100000 nodes of 64 features.

  One layer sends the node features `x` to `max (mean(x) · Wlᵀ + x · Wrᵀ + b) 0`, where `mean(x)` at node `n` is the
  sum of `x` over the edges arriving at `n` divided by `max (number of such edges) 1`. The sum over arriving edges (a
  gather along the edge list followed by a scatter-add) and the count are the SAME host operations in both programs
  and are never opened here: they are carried as functions of `x` and of the edge list.

  This file states the layer index by index (`layer`, `readout`), reads the reference's stages as those functions
  (`ref_layer1` … `ref_layer4`, `ref_readout`), and proves the one law that joins the two spellings of the mean: the
  reference divides the aggregate by `d = max (count) 1`, the other program multiplies it by `1 / d`. Since
  `d ≥ 1` it is not zero, and on the extended reals `a / d = a · d⁻¹ = a · (1 · d⁻¹) = a · (1 / d)` for every `a`,
  infinite ones included — no finiteness of the inputs is used.
-/
import proofs.«113997_j68616397521281_1_alg».proof.Proof.Gen.ReferenceIdeal.Read
import Idealize.ShloMosaic.Lib.IdealHost

noncomputable section

namespace Cert.Sage

open Cert.ReferenceIdeal Cert.ReferenceIdeal.Gen Cert.ReferenceIdeal.Read Idealize.ShloMosaic Idealize.ShloMosaic.TcCoe
open scoped BigOperators

/-! ## The layer and the read-out, index by index -/

/-- One layer at node `i 0`, feature `i 1`: `max (Σₖ mean[n,k]·wl[k,f] + Σₖ x[n,k]·wr[k,f] + b[0,f]) 0`
    (`wl`, `wr` the already transposed weights, `b` the bias as a row). -/
def layer (mean x : FVec Ideal S100000x64 .f32) (wl wr : FVec Ideal S64x64 .f32) (b : FVec Ideal S1x64 .f32) :
    FVec Ideal S100000x64 .f32 := fun i =>
  FloatOps.maximumf
    (FloatOps.addf
      (FloatOps.addf (∑ k : Fin 64, mean (lidx_main_v24 i k) * wl (ridx_main_v24 i k))
        (∑ k : Fin 64, x (lidx_main_v24 i k) * wr (ridx_main_v24 i k)))
      (b (idx_main_v29 i)))
    (FloatOps.ofBits .f32 0x00000000#32)

/-- The read-out at node `i 0`, class `i 1`: `Σₖ x[n,k]·w[k,c] + b[0,c]`. -/
def readout (x : FVec Ideal S100000x64 .f32) (w : FVec Ideal S64x10 .f32) (b : FVec Ideal S1x10 .f32) :
    FVec Ideal S100000x10 .f32 := fun i =>
  FloatOps.addf (∑ k : Fin 64, x (lidx_main_v117 i k) * w (ridx_main_v117 i k)) (b (idx_main_v119 i))

/-! ## The mean over arriving edges, in its two spellings -/

/-- A per-node column broadcast along the features reads the node's entry. -/
theorem bcast_col_apply (y : FVec Ideal S100000 .f32) (i : S100000x64.Idx) :
    broadcastInDim S100000x64 ![0, 1] bcast_S100000x1_S100000x64_0_1
      (broadcastInDim S100000x1 ![0] bcast_S100000_S100000x1_0 y) i = y (idx_main_v20 (idx_main_v21 i)) := by
  refine (broadcastInDim_apply _ bcast_S100000x1_S100000x64_0_1 _ i (idx_main_v21 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 y (idx_main_v21 i) (idx_main_v20 (idx_main_v21 i)) (fun a => match a with
    | ⟨0, _⟩ => by show ((idx_main_v21 i) 0).val = if (100000 : Nat) = 1 then 0 else ((idx_main_v21 i) 0).val; rw [if_neg (by decide)])

/-- On the extended reals, multiplying by the reciprocal of `max s 1` is dividing by it: the divisor is at least one,
    so it is not zero and both sides are `a · (max s 1)⁻¹`. -/
theorem mul_recip_max_one (a s : EReal) : a * Ideal.div 1 (max s 1) = Ideal.div a (max s 1) := by
  have h : max s 1 ≠ 0 := ne_of_gt (lt_of_lt_of_le zero_lt_one (le_max_right s 1))
  unfold Ideal.div
  rw [if_neg h, if_neg h, one_mul]

/-- The same law for whole arrays: an array `a` times the per-node reciprocal of `max s 1`, broadcast along the features,
    is `a` divided by `max s 1` broadcast along the features (`a`, `s` ANY arrays; `one` the all-ones array). -/
theorem mulRecip_eq_div (a : FVec Ideal S100000x64 .f32) (s one : FVec Ideal S100000 .f32) (hone : ∀ j, one j = 1) :
    mulf a (broadcastInDim S100000x64 ![0, 1] bcast_S100000x1_S100000x64_0_1
        (broadcastInDim S100000x1 ![0] bcast_S100000_S100000x1_0 (Host.divf one (maximumf s one))))
      = Host.divf a (broadcastInDim S100000x64 ![0, 1] bcast_S100000x1_S100000x64_0_1
        (broadcastInDim S100000x1 ![0] bcast_S100000_S100000x1_0 (maximumf s one))) := by
  funext i
  rw [ValueIdx.mulf_apply, ValueIdx.hostDivf_apply, bcast_col_apply, bcast_col_apply, ValueIdx.hostDivf_apply,
    ValueIdx.maximumf_apply, hone]
  exact mul_recip_max_one _ _

/-- The all-ones array of the reference reads one. -/
theorem ones_apply (j : S100000.Idx) : val_main_v18 (F := Ideal) j = 1 := by
  rw [val_main_v18_apply, val_main_cst_3_apply, Ideal.ofBits_def, Ideal.ofBits_one_f32]

/-- The other spelling of the mean: the aggregate times the reciprocal `1 / max count 1`, the reciprocal taken once per
    node and then broadcast along the features. -/
def meanMul (x : FVec Ideal S100000x64 .f32) (e : IVec S2x1250000 32) : FVec Ideal S100000x64 .f32 :=
  mulf (val_main_v13 (F := Ideal) x e)
    (broadcastInDim S100000x64 ![0, 1] bcast_S100000x1_S100000x64_0_1
      (broadcastInDim S100000x1 ![0] bcast_S100000_S100000x1_0
        (Host.divf (val_main_v18 (F := Ideal)) (maximumf (val_main_v17 (F := Ideal) e) (val_main_v18 (F := Ideal))))))

/-- The two spellings of the mean are one array (the reference's is `val_main_v22`: the aggregate divided by
    `max count 1` broadcast along the features). -/
theorem meanMul_eq (x : FVec Ideal S100000x64 .f32) (e : IVec S2x1250000 32) : meanMul x e = val_main_v22 (F := Ideal) x e := by
  simp only [meanMul, val_main_v22, val_main_v21, val_main_v20, val_main_v19]
  generalize val_main_v13 (F := Ideal) x e = a
  generalize val_main_v17 (F := Ideal) e = s
  exact mulRecip_eq_div a s _ ones_apply

/-! ## The reference's stages are the layer and the read-out -/

/-- One step of the network as the reference computes it: the mean by division, the weights transposed, the bias as a row. -/
def step (x : FVec Ideal S100000x64 .f32) (e : IVec S2x1250000 32) (wl wr : FVec Ideal S64x64 .f32) (b : FVec Ideal S64 .f32) :
    FVec Ideal S100000x64 .f32 :=
  layer (val_main_v22 (F := Ideal) x e) x (val_main_v23 (F := Ideal) wl) (val_main_v23 (F := Ideal) wr) (val_main_v28 (F := Ideal) b)

/-- Every layer's mean is the first layer's function of that layer's input (the stages differ in name only). -/
theorem mean2 (x0 : FVec Ideal S100000x64 .f32) (x1 : IVec S2x1250000 32) (x2 x3 : FVec Ideal S64x64 .f32) (x4 : FVec Ideal S64 .f32) :
    val_main_v50 (F := Ideal) x0 x1 x2 x3 x4 = val_main_v22 (F := Ideal) (val_main_v31 (F := Ideal) x0 x1 x2 x3 x4) x1 := by
  simp only [val_main_v50, val_main_v41, val_main_v49, val_main_v48, val_main_v47, val_main_v45, val_main_v46, val_main_v43, val_main_v44, val_main_v42, val_main_v39, val_main_v40, val_main_v38, val_main_v37, val_main_v36, val_main_v33, val_main_v35, val_main_v32, val_main_v34, val_main_cst_6, val_main_cst_7, val_main_cst_8, val_main_cst_9, val_main_c_4, val_main_c_5, val_main_v22, val_main_v13, val_main_v21, val_main_v20, val_main_v19, val_main_v17, val_main_v18, val_main_v15, val_main_v16, val_main_v14, val_main_v11, val_main_v12, val_main_v10, val_main_v9, val_main_v8, val_main_v5, val_main_v7, val_main_v4, val_main_v6, val_main_cst, val_main_cst_1, val_main_cst_2, val_main_cst_3, val_main_c, val_main_c_0]
theorem mean3 (x0 : FVec Ideal S100000x64 .f32) (x1 : IVec S2x1250000 32) (x2 x3 : FVec Ideal S64x64 .f32) (x4 : FVec Ideal S64 .f32) (x5 x6 : FVec Ideal S64x64 .f32) (x7 : FVec Ideal S64 .f32) :
    val_main_v78 (F := Ideal) x0 x1 x2 x3 x4 x5 x6 x7 = val_main_v22 (F := Ideal) (val_main_v59 (F := Ideal) x0 x1 x2 x3 x4 x5 x6 x7) x1 := by
  simp only [val_main_v78, val_main_v69, val_main_v77, val_main_v76, val_main_v75, val_main_v73, val_main_v74, val_main_v71, val_main_v72, val_main_v70, val_main_v67, val_main_v68, val_main_v66, val_main_v65, val_main_v64, val_main_v61, val_main_v63, val_main_v60, val_main_v62, val_main_cst_12, val_main_cst_13, val_main_cst_14, val_main_cst_15, val_main_c_10, val_main_c_11, val_main_v22, val_main_v13, val_main_v21, val_main_v20, val_main_v19, val_main_v17, val_main_v18, val_main_v15, val_main_v16, val_main_v14, val_main_v11, val_main_v12, val_main_v10, val_main_v9, val_main_v8, val_main_v5, val_main_v7, val_main_v4, val_main_v6, val_main_cst, val_main_cst_1, val_main_cst_2, val_main_cst_3, val_main_c, val_main_c_0]
theorem mean4 (x0 : FVec Ideal S100000x64 .f32) (x1 : IVec S2x1250000 32) (x2 x3 : FVec Ideal S64x64 .f32) (x4 : FVec Ideal S64 .f32) (x5 x6 : FVec Ideal S64x64 .f32) (x7 : FVec Ideal S64 .f32) (x8 x9 : FVec Ideal S64x64 .f32) (x10 : FVec Ideal S64 .f32) :
    val_main_v106 (F := Ideal) x0 x1 x2 x3 x4 x5 x6 x7 x8 x9 x10 = val_main_v22 (F := Ideal) (val_main_v87 (F := Ideal) x0 x1 x2 x3 x4 x5 x6 x7 x8 x9 x10) x1 := by
  simp only [val_main_v106, val_main_v97, val_main_v105, val_main_v104, val_main_v103, val_main_v101, val_main_v102, val_main_v99, val_main_v100, val_main_v98, val_main_v95, val_main_v96, val_main_v94, val_main_v93, val_main_v92, val_main_v89, val_main_v91, val_main_v88, val_main_v90, val_main_cst_18, val_main_cst_19, val_main_cst_20, val_main_cst_21, val_main_c_16, val_main_c_17, val_main_v22, val_main_v13, val_main_v21, val_main_v20, val_main_v19, val_main_v17, val_main_v18, val_main_v15, val_main_v16, val_main_v14, val_main_v11, val_main_v12, val_main_v10, val_main_v9, val_main_v8, val_main_v5, val_main_v7, val_main_v4, val_main_v6, val_main_cst, val_main_cst_1, val_main_cst_2, val_main_cst_3, val_main_c, val_main_c_0]

theorem ref_layer1 (x0 : FVec Ideal S100000x64 .f32) (x1 : IVec S2x1250000 32) (x2 x3 : FVec Ideal S64x64 .f32) (x4 : FVec Ideal S64 .f32) :
    val_main_v31 (F := Ideal) x0 x1 x2 x3 x4 = step x0 x1 x2 x3 x4 := by
  funext i
  rw [val_main_v31_apply, val_main_v30_apply, val_main_v27_apply, val_main_v24_apply, val_main_v26_apply, val_main_v29_apply,
    val_main_call0_v0_apply, val_main_call0_cst_apply]
  have e1 : lidx_main_v26 = lidx_main_v24 := rfl
  have e2 : ridx_main_v26 = ridx_main_v24 := rfl
  have e3 : val_main_v25 (F := Ideal) = val_main_v23 (F := Ideal) := rfl
  rw [e1, e2, e3]
  unfold step layer
  rfl

theorem ref_layer2 (x0 : FVec Ideal S100000x64 .f32) (x1 : IVec S2x1250000 32) (x2 x3 : FVec Ideal S64x64 .f32) (x4 : FVec Ideal S64 .f32) (x5 x6 : FVec Ideal S64x64 .f32) (x7 : FVec Ideal S64 .f32) :
    val_main_v59 (F := Ideal) x0 x1 x2 x3 x4 x5 x6 x7 = step (val_main_v31 (F := Ideal) x0 x1 x2 x3 x4) x1 x5 x6 x7 := by
  funext i
  rw [val_main_v59_apply, val_main_v58_apply, val_main_v55_apply, val_main_v52_apply, val_main_v54_apply, val_main_v57_apply,
    val_main_call1_v0_apply, val_main_call1_cst_apply]
  have e1 : lidx_main_v52 = lidx_main_v24 := rfl
  have e2 : ridx_main_v52 = ridx_main_v24 := rfl
  have e3 : lidx_main_v54 = lidx_main_v24 := rfl
  have e4 : ridx_main_v54 = ridx_main_v24 := rfl
  have e5 : val_main_v51 (F := Ideal) = val_main_v23 (F := Ideal) := rfl
  have e6 : val_main_v53 (F := Ideal) = val_main_v23 (F := Ideal) := rfl
  have e7 : val_main_v56 (F := Ideal) = val_main_v28 (F := Ideal) := rfl
  have e8 : idx_main_v57 = idx_main_v29 := rfl
  rw [e1, e2, e3, e4, e5, e6, e7, e8]
  simp only [mean2]
  unfold step layer
  rfl

theorem ref_layer3 (x0 : FVec Ideal S100000x64 .f32) (x1 : IVec S2x1250000 32) (x2 x3 : FVec Ideal S64x64 .f32) (x4 : FVec Ideal S64 .f32) (x5 x6 : FVec Ideal S64x64 .f32) (x7 : FVec Ideal S64 .f32) (x8 x9 : FVec Ideal S64x64 .f32) (x10 : FVec Ideal S64 .f32) :
    val_main_v87 (F := Ideal) x0 x1 x2 x3 x4 x5 x6 x7 x8 x9 x10
      = step (val_main_v59 (F := Ideal) x0 x1 x2 x3 x4 x5 x6 x7) x1 x8 x9 x10 := by
  funext i
  rw [val_main_v87_apply, val_main_v86_apply, val_main_v83_apply, val_main_v80_apply, val_main_v82_apply, val_main_v85_apply,
    val_main_call2_v0_apply, val_main_call2_cst_apply]
  have e1 : lidx_main_v80 = lidx_main_v24 := rfl
  have e2 : ridx_main_v80 = ridx_main_v24 := rfl
  have e3 : lidx_main_v82 = lidx_main_v24 := rfl
  have e4 : ridx_main_v82 = ridx_main_v24 := rfl
  have e5 : val_main_v79 (F := Ideal) = val_main_v23 (F := Ideal) := rfl
  have e6 : val_main_v81 (F := Ideal) = val_main_v23 (F := Ideal) := rfl
  have e7 : val_main_v84 (F := Ideal) = val_main_v28 (F := Ideal) := rfl
  have e8 : idx_main_v85 = idx_main_v29 := rfl
  rw [e1, e2, e3, e4, e5, e6, e7, e8]
  simp only [mean3]
  unfold step layer
  rfl

theorem ref_layer4 (x0 : FVec Ideal S100000x64 .f32) (x1 : IVec S2x1250000 32) (x2 x3 : FVec Ideal S64x64 .f32) (x4 : FVec Ideal S64 .f32) (x5 x6 : FVec Ideal S64x64 .f32) (x7 : FVec Ideal S64 .f32) (x8 x9 : FVec Ideal S64x64 .f32) (x10 : FVec Ideal S64 .f32) (x11 x12 : FVec Ideal S64x64 .f32) (x13 : FVec Ideal S64 .f32) :
    val_main_v115 (F := Ideal) x0 x1 x2 x3 x4 x5 x6 x7 x8 x9 x10 x11 x12 x13
      = step (val_main_v87 (F := Ideal) x0 x1 x2 x3 x4 x5 x6 x7 x8 x9 x10) x1 x11 x12 x13 := by
  funext i
  rw [val_main_v115_apply, val_main_v114_apply, val_main_v111_apply, val_main_v108_apply, val_main_v110_apply, val_main_v113_apply,
    val_main_call3_v0_apply, val_main_call3_cst_apply]
  have e1 : lidx_main_v108 = lidx_main_v24 := rfl
  have e2 : ridx_main_v108 = ridx_main_v24 := rfl
  have e3 : lidx_main_v110 = lidx_main_v24 := rfl
  have e4 : ridx_main_v110 = ridx_main_v24 := rfl
  have e5 : val_main_v107 (F := Ideal) = val_main_v23 (F := Ideal) := rfl
  have e6 : val_main_v109 (F := Ideal) = val_main_v23 (F := Ideal) := rfl
  have e7 : val_main_v112 (F := Ideal) = val_main_v28 (F := Ideal) := rfl
  have e8 : idx_main_v113 = idx_main_v29 := rfl
  rw [e1, e2, e3, e4, e5, e6, e7, e8]
  simp only [mean4]
  unfold step layer
  rfl

theorem ref_readout (x0 : FVec Ideal S100000x64 .f32) (x1 : IVec S2x1250000 32) (x2 x3 : FVec Ideal S64x64 .f32) (x4 : FVec Ideal S64 .f32) (x5 x6 : FVec Ideal S64x64 .f32) (x7 : FVec Ideal S64 .f32) (x8 x9 : FVec Ideal S64x64 .f32) (x10 : FVec Ideal S64 .f32) (x11 x12 : FVec Ideal S64x64 .f32) (x13 : FVec Ideal S64 .f32) (x14 : FVec Ideal S10x64 .f32) (x15 : FVec Ideal S10 .f32) :
    val_main_v120 (F := Ideal) x0 x1 x2 x3 x4 x5 x6 x7 x8 x9 x10 x11 x12 x13 x14 x15
      = readout (val_main_v115 (F := Ideal) x0 x1 x2 x3 x4 x5 x6 x7 x8 x9 x10 x11 x12 x13) (val_main_v116 (F := Ideal) x14) (val_main_v118 (F := Ideal) x15) := by
  funext i
  rw [val_main_v120_apply, val_main_v117_apply, val_main_v119_apply]
  unfold readout
  rfl

/-- The whole network as one function of the arguments. -/
def network (x0 : FVec Ideal S100000x64 .f32) (e : IVec S2x1250000 32) (wl1 wr1 : FVec Ideal S64x64 .f32) (b1 : FVec Ideal S64 .f32)
    (wl2 wr2 : FVec Ideal S64x64 .f32) (b2 : FVec Ideal S64 .f32) (wl3 wr3 : FVec Ideal S64x64 .f32) (b3 : FVec Ideal S64 .f32)
    (wl4 wr4 : FVec Ideal S64x64 .f32) (b4 : FVec Ideal S64 .f32) (wlin : FVec Ideal S10x64 .f32) (blin : FVec Ideal S10 .f32) :
    FVec Ideal S100000x10 .f32 :=
  readout (step (step (step (step x0 e wl1 wr1 b1) e wl2 wr2 b2) e wl3 wr3 b3) e wl4 wr4 b4)
    (val_main_v116 (F := Ideal) wlin) (val_main_v118 (F := Ideal) blin)

/-- The reference computes the network. -/
theorem ref_network (x0 : FVec Ideal S100000x64 .f32) (x1 : IVec S2x1250000 32) (x2 x3 : FVec Ideal S64x64 .f32) (x4 : FVec Ideal S64 .f32) (x5 x6 : FVec Ideal S64x64 .f32) (x7 : FVec Ideal S64 .f32) (x8 x9 : FVec Ideal S64x64 .f32) (x10 : FVec Ideal S64 .f32) (x11 x12 : FVec Ideal S64x64 .f32) (x13 : FVec Ideal S64 .f32) (x14 : FVec Ideal S10x64 .f32) (x15 : FVec Ideal S10 .f32) :
    val_main_v120 (F := Ideal) x0 x1 x2 x3 x4 x5 x6 x7 x8 x9 x10 x11 x12 x13 x14 x15
      = network x0 x1 x2 x3 x4 x5 x6 x7 x8 x9 x10 x11 x12 x13 x14 x15 := by
  rw [ref_readout, ref_layer4, ref_layer3, ref_layer2, ref_layer1]
  unfold network
  rfl

end Cert.Sage

end
-- ==== Proof.KRun.lean ====
/-
  The idealized network program's run, with EVERY buffer named at the end: each weakly fair execution of the program
  terminates without a fault, and every buffer that outlives its call — the result and the sixteen arguments among
  them — ends holding the contents of the last segment boundary. (The frame statement keeps only the arguments of this;
  here the result's buffer is kept as well, so that its value can be read off the boundary contents.)
-/
import proofs.«113997_j68616397521281_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, without a fault, with each outliving buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c b hb)

/-- The run with the result named: the result's buffer at the last boundary's contents, the arguments as launched. -/
theorem run_result : θ_run defs (onTc (τ := τ) (main (F := F))) ⟨m, fun _ => 0, ρ⟩ (fun r => ∀ c : Dev nD,
      r.2.mem ((c.tc : Thread nD τ).loc main_v79) = W10 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨h c _ (mem_uc main_v79 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)
    (run_all m ρ)

end Cert.KernelIdeal.Hand

end
-- ==== Proof.KBlock.lean ====
/-
  What one grid point computes, entry by entry. Every layer's body takes a block of 10000 rows of the mean and of the
  features, the two 64×64 weight blocks and the bias row, and stores `max (mean·wl + x·wr + b) 0`; the read-out's body
  stores `x·w + b` for a 64×10 weight block. A product into a zero accumulator read at an entry is the sum, over the 64
  contracted features, of the products of the operands' entries; the bias row is broadcast down the rows.
-/
import proofs.«113997_j68616397521281_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe
open scoped BigOperators

/-! ## Indices inside a block -/

/-- Row `j 0`, contracted feature `k` of a 10000×64 block. -/
abbrev bl (j : S10000x64.Idx) (k : Fin 64) : S10000x64.Idx := fun a => match a with
  | ⟨0, _⟩ => ⟨(j 0).val, (j 0).isLt⟩
  | ⟨1, _⟩ => ⟨k.val, k.isLt⟩
/-- Contracted feature `k`, output feature `j 1` of a 64×64 weight block. -/
abbrev br (j : S10000x64.Idx) (k : Fin 64) : S64x64.Idx := fun a => match a with
  | ⟨0, _⟩ => ⟨k.val, k.isLt⟩
  | ⟨1, _⟩ => ⟨(j 1).val, (j 1).isLt⟩
/-- Output feature `j 1` of the bias row. -/
abbrev brow (j : S10000x64.Idx) : S1x64.Idx := fun a => match a with
  | ⟨0, _⟩ => ⟨0, Nat.one_pos⟩
  | ⟨1, _⟩ => ⟨(j 1).val, (j 1).isLt⟩
/-- The same three for the read-out's 10000×10 result block. -/
abbrev blF (j : S10000x10.Idx) (k : Fin 64) : S10000x64.Idx := fun a => match a with
  | ⟨0, _⟩ => ⟨(j 0).val, (j 0).isLt⟩
  | ⟨1, _⟩ => ⟨k.val, k.isLt⟩
abbrev brF (j : S10000x10.Idx) (k : Fin 64) : S64x10.Idx := fun a => match a with
  | ⟨0, _⟩ => ⟨k.val, k.isLt⟩
  | ⟨1, _⟩ => ⟨(j 1).val, (j 1).isLt⟩
abbrev browF (j : S10000x10.Idx) : S1x10.Idx := fun a => match a with
  | ⟨0, _⟩ => ⟨0, Nat.one_pos⟩
  | ⟨1, _⟩ => ⟨(j 1).val, (j 1).isLt⟩

/-! ## The products and the bias row at an entry -/

theorem mm64_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem mm64_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem mm64_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem mm64_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's product into the zero accumulator, read at an entry: the sum over the 64 contracted features. -/
theorem blockmm {φ₁ φ₂ : FTy} (l : FVec Ideal S10000x64 φ₁) (r : FVec Ideal S64x64 φ₂) (j : S10000x64.Idx) :
    FloatOps.matmul dot_S10000x64_S64x64_S10000x64_1_0_0_1_n_n none l r (constant S10000x64 .f32 0x00000000#32) j
      = ∑ k : Fin 64, l (bl j k) * r (br j k) := by
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = bl j k := funext fun a => Fin.ext (by
    match a with
    | ⟨0, _⟩ => exact mm64_lhs_0 _ _
    | ⟨1, _⟩ => exact (mm64_lhs_1 _ _).trans hk)
  have er : dot_S10000x64_S64x64_S10000x64_1_0_0_1_n_n.rhsIdx j ((ValueIdx.contrEquiv1 dot_S10000x64_S64x64_S10000x64_1_0_0_1_n_n 64 rfl rfl).symm k) = br j k := funext fun a => Fin.ext (by
    match a with
    | ⟨0, _⟩ => exact (mm64_rhs_0 _ _).trans hk
    | ⟨1, _⟩ => exact mm64_rhs_1 _ _)
  rw [el, er]

theorem mm10_lhs_0 (i : S10000x10.Idx) (q : dot_S10000x64_S64x10_S10000x10_1_0_0_1_n_n.contr.Idx) :
    (dot_S10000x64_S64x10_S10000x10_1_0_0_1_n_n.lhsIdx i q 0).val = (i 0).val := by
  unfold DotDims.lhsIdx
  rw [dif_neg (show ¬(0 : Fin S10000x64.rank) ∈ dot_S10000x64_S64x10_S10000x10_1_0_0_1_n_n.lhsBatch by decide), dif_pos (show (0 : Fin S10000x64.rank) ∈ dot_S10000x64_S64x10_S10000x10_1_0_0_1_n_n.lhsNonContracting by decide)]
  rfl
theorem mm10_lhs_1 (i : S10000x10.Idx) (q : dot_S10000x64_S64x10_S10000x10_1_0_0_1_n_n.contr.Idx) :
    (dot_S10000x64_S64x10_S10000x10_1_0_0_1_n_n.lhsIdx i q 1).val = (q ⟨0, by decide⟩).val :=
  dot_S10000x64_S64x10_S10000x10_1_0_0_1_n_n.lhsIdx_val_of_single rfl i q
theorem mm10_rhs_0 (i : S10000x10.Idx) (q : dot_S10000x64_S64x10_S10000x10_1_0_0_1_n_n.contr.Idx) :
    (dot_S10000x64_S64x10_S10000x10_1_0_0_1_n_n.rhsIdx i q 0).val = (q ⟨0, by decide⟩).val :=
  dot_S10000x64_S64x10_S10000x10_1_0_0_1_n_n.rhsIdx_val_of_single rfl i q
theorem mm10_rhs_1 (i : S10000x10.Idx) (q : dot_S10000x64_S64x10_S10000x10_1_0_0_1_n_n.contr.Idx) :
    (dot_S10000x64_S64x10_S10000x10_1_0_0_1_n_n.rhsIdx i q 1).val = (i 1).val := by
  unfold DotDims.rhsIdx
  rw [dif_neg (show ¬(1 : Fin S64x10.rank) ∈ dot_S10000x64_S64x10_S10000x10_1_0_0_1_n_n.rhsBatch by decide), dif_pos (show (1 : Fin S64x10.rank) ∈ dot_S10000x64_S64x10_S10000x10_1_0_0_1_n_n.rhsNonContracting by decide)]
  rfl

/-- A block's product into the zero accumulator, read at an entry: the sum over the 64 contracted features. -/
theorem blockmmF {φ₁ φ₂ : FTy} (l : FVec Ideal S10000x64 φ₁) (r : FVec Ideal S64x10 φ₂) (j : S10000x10.Idx) :
    FloatOps.matmul dot_S10000x64_S64x10_S10000x10_1_0_0_1_n_n none l r (constant S10000x10 .f32 0x00000000#32) j
      = ∑ k : Fin 64, l (blF j k) * r (brF j k) := by
  rw [Ideal.matmul_constant_zero_apply, ← Equiv.sum_comp (ValueIdx.contrEquiv1 dot_S10000x64_S64x10_S10000x10_1_0_0_1_n_n 64 rfl rfl).symm]
  refine Finset.sum_congr rfl fun k _ => ?_
  have hk := ValueIdx.contrEquiv1_symm_val dot_S10000x64_S64x10_S10000x10_1_0_0_1_n_n 64 rfl rfl k
  have el : dot_S10000x64_S64x10_S10000x10_1_0_0_1_n_n.lhsIdx j ((ValueIdx.contrEquiv1 dot_S10000x64_S64x10_S10000x10_1_0_0_1_n_n 64 rfl rfl).symm k) = blF j k := funext fun a => Fin.ext (by
    match a with
    | ⟨0, _⟩ => exact mm10_lhs_0 _ _
    | ⟨1, _⟩ => exact (mm10_lhs_1 _ _).trans hk)
  have er : dot_S10000x64_S64x10_S10000x10_1_0_0_1_n_n.rhsIdx j ((ValueIdx.contrEquiv1 dot_S10000x64_S64x10_S10000x10_1_0_0_1_n_n 64 rfl rfl).symm k) = brF j k := funext fun a => Fin.ext (by
    match a with
    | ⟨0, _⟩ => exact (mm10_rhs_0 _ _).trans hk
    | ⟨1, _⟩ => exact mm10_rhs_1 _ _)
  rw [el, er]

/-- The bias row broadcast down the rows reads the row's entry. -/
theorem browB (v14 : Vec Ideal S1x64 .f32) (j : S10000x64.Idx) :
    broadcastTo S10000x64 v14 broadcasts_S1x64_S10000x64 j = v14 (brow j) :=
  broadcastTo_apply v14 broadcasts_S1x64_S10000x64 j (brow j) (fun a => match a with
    | ⟨0, _⟩ => by show 0 = if (1 : Nat) = 1 then 0 else _; rw [if_pos rfl]
    | ⟨1, _⟩ => by show (j 1).val = if (64 : Nat) = 1 then 0 else (j 1).val; rw [if_neg (by decide)])
theorem browBF (v7 : Vec Ideal S1x10 .f32) (j : S10000x10.Idx) :
    broadcastTo S10000x10 v7 broadcasts_S1x10_S10000x10 j = v7 (browF j) :=
  broadcastTo_apply v7 broadcasts_S1x10_S10000x10 j (browF j) (fun a => match a with
    | ⟨0, _⟩ => by show 0 = if (1 : Nat) = 1 then 0 else _; rw [if_pos rfl]
    | ⟨1, _⟩ => by show (j 1).val = if (10 : Nat) = 1 then 0 else (j 1).val; rw [if_neg (by decide)])

/-! ## The bodies' stored values at an entry -/

/-- Layer 1's block of results at row `j 0`, feature `j 1`: `max (Σₖ mean[r,k]·wl[k,f] + Σₖ x[r,k]·wr[k,f] + b[0,f]) 0` of its loaded blocks
    (the roundings to the narrower format on the way into the products are the identity on the extended reals). -/
theorem pay0_apply (v0 v3 : Vec Ideal S10000x64 .f32) (v5 v8 : Vec Ideal S64x64 .f32) (v14 : Vec Ideal S1x64 .f32) (j : S10000x64.Idx) :
    k0_pay1 (F := Ideal) v0 v3 v5 v8 v14 j
      = FloatOps.maximumf (FloatOps.addf (FloatOps.addf (∑ k : Fin 64, v0 (bl j k) * v5 (br j k)) (∑ k : Fin 64, v3 (bl j k) * v8 (br j k))) (v14 (brow j)))
          (FloatOps.ofBits .f32 0x00000000#32) := by
  unfold k0_pay1
  simp only [shapeCast_self]
  simp only [maximumf, addf, broadcast, matmul]
  rw [blockmm, blockmm, browB]
  rfl

/-- Layer 2's block of results at row `j 0`, feature `j 1`: `max (Σₖ mean[r,k]·wl[k,f] + Σₖ x[r,k]·wr[k,f] + b[0,f]) 0` of its loaded blocks
    (the roundings to the narrower format on the way into the products are the identity on the extended reals). -/
theorem pay1_apply (v0 v3 : Vec Ideal S10000x64 .f32) (v5 v8 : Vec Ideal S64x64 .f32) (v14 : Vec Ideal S1x64 .f32) (j : S10000x64.Idx) :
    k1_pay1 (F := Ideal) v0 v3 v5 v8 v14 j
      = FloatOps.maximumf (FloatOps.addf (FloatOps.addf (∑ k : Fin 64, v0 (bl j k) * v5 (br j k)) (∑ k : Fin 64, v3 (bl j k) * v8 (br j k))) (v14 (brow j)))
          (FloatOps.ofBits .f32 0x00000000#32) := by
  unfold k1_pay1
  simp only [shapeCast_self]
  simp only [maximumf, addf, broadcast, matmul]
  rw [blockmm, blockmm, browB]
  rfl

/-- Layer 3's block of results at row `j 0`, feature `j 1`: `max (Σₖ mean[r,k]·wl[k,f] + Σₖ x[r,k]·wr[k,f] + b[0,f]) 0` of its loaded blocks
    (the roundings to the narrower format on the way into the products are the identity on the extended reals). -/
theorem pay2_apply (v0 v3 : Vec Ideal S10000x64 .f32) (v5 v8 : Vec Ideal S64x64 .f32) (v14 : Vec Ideal S1x64 .f32) (j : S10000x64.Idx) :
    k2_pay1 (F := Ideal) v0 v3 v5 v8 v14 j
      = FloatOps.maximumf (FloatOps.addf (FloatOps.addf (∑ k : Fin 64, v0 (bl j k) * v5 (br j k)) (∑ k : Fin 64, v3 (bl j k) * v8 (br j k))) (v14 (brow j)))
          (FloatOps.ofBits .f32 0x00000000#32) := by
  unfold k2_pay1
  simp only [shapeCast_self]
  simp only [maximumf, addf, broadcast, matmul]
  rw [blockmm, blockmm, browB]
  rfl

/-- Layer 4's block of results at row `j 0`, feature `j 1`: `max (Σₖ mean[r,k]·wl[k,f] + Σₖ x[r,k]·wr[k,f] + b[0,f]) 0` of its loaded blocks
    (the roundings to the narrower format on the way into the products are the identity on the extended reals). -/
theorem pay3_apply (v0 v3 : Vec Ideal S10000x64 .f32) (v5 v8 : Vec Ideal S64x64 .f32) (v14 : Vec Ideal S1x64 .f32) (j : S10000x64.Idx) :
    k3_pay1 (F := Ideal) v0 v3 v5 v8 v14 j
      = FloatOps.maximumf (FloatOps.addf (FloatOps.addf (∑ k : Fin 64, v0 (bl j k) * v5 (br j k)) (∑ k : Fin 64, v3 (bl j k) * v8 (br j k))) (v14 (brow j)))
          (FloatOps.ofBits .f32 0x00000000#32) := by
  unfold k3_pay1
  simp only [shapeCast_self]
  simp only [maximumf, addf, broadcast, matmul]
  rw [blockmm, blockmm, browB]
  rfl

/-- The read-out's block of results at row `j 0`, class `j 1`: `Σₖ x[r,k]·w[k,c] + b[0,c]`. -/
theorem pay4_apply (v0 : Vec Ideal S10000x64 .f32) (v3 : Vec Ideal S64x10 .f32) (v7 : Vec Ideal S1x10 .f32) (j : S10000x10.Idx) :
    k4_pay1 (F := Ideal) v0 v3 v7 j
      = FloatOps.addf (∑ k : Fin 64, v0 (blF j k) * v3 (brF j k)) (v7 (browF j)) := by
  unfold k4_pay1
  simp only [shapeCast_self]
  simp only [addf, matmul]
  rw [blockmmF, browBF]
  rfl

end Cert.KernelIdeal.Hand

end
-- ==== Proof.KRegion0.lean ====
/-
  Layer 1's launch, read as a value. The grid has ten points; point `t` takes rows `10000·t … 10000·t + 9999` of the
  mean and of the features, the whole of the two weight arrays and of the bias row, and writes back the same rows of
  the result. So what point `t` writes back is block `t` of ONE function of the arrays the launch finds — the layer,
  index by index — and the ten blocks cover the result array: after the launch it holds the layer of those arrays.
-/
import proofs.«113997_j68616397521281_1_alg».proof.Proof.Gen.KernelIdeal.Frame
import proofs.«113997_j68616397521281_1_alg».proof.Proof.Layer
import proofs.«113997_j68616397521281_1_alg».proof.Proof.KBlock

set_option maxRecDepth 16384

noncomputable section

namespace Cert.KernelIdeal.Hand

open Cert.KernelIdeal Cert.KernelIdeal.Gen Idealize.ShloMosaic Idealize.ShloMosaic.TcCoe
open Idealize.ShloMosaic.Pipeline (Dat Cfg Window)
open scoped BigOperators

variable (V : (c : Dev nD) → (b : Ref sig .tc) → Buf (Elt Ideal) ((c : Thread nD τ).loc b))

theorem zero2_0 : (![0, 0] : Fin 2 → Nat) = fun _ => 0 := funext fun a => by fin_cases a <;> rfl

/-- The printed index maps, decided over the ten points: the two row-blocked inputs move with the output's row block,
    every other block index is zero, and the output's row block stays below ten. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem idx_onto0 : ∀ q0 : Fin 10, ∃ t : Fin cfg0.N, win0_5.index t = ![q0.val, 0] :=
  (by decide +kernel : ∀ q0 : Fin 10, ∃ t : Fin grid0.N, win0_5.index t = ![q0.val, 0])

set_option maxHeartbeats 1600000 in
/-- WHAT POINT `t` WRITES BACK is block `t` of the layer of the arrays as the launch finds them. -/
theorem flushed_eq0 (c : Dev nD) (t : Fin cfg0.N) :
    (dat0 V c).flushed 5 t = ((cfg0.win 5).blk t).view.read (Elt Ideal)
      (Cert.Sage.layer (V c main_v24) (V c main_arg0) (V c main_v25) (V c main_v26) (V c main_v27)) := by
  show (cfg0.win 5).cut (grid0.coords t) ((dat0 V c).after 5 t) = _
  rw [after0_5]
  unfold out0_5
  rw [View.canon_unit_zero zero2_0]
  simp only [View.ld_unit_zero (S := S10000x64) zero2_0, View.ld_unit_zero (S := S64x64) zero2_0, View.ld_unit_zero (S := S1x64) zero2_0]
  funext j
  show k0_pay1 (iblk0 V c 0 t) (iblk0 V c 1 t) (iblk0 V c 2 t) (iblk0 V c 3 t) (iblk0 V c 4 t) j
    = Cert.Sage.layer (V c main_v24) (V c main_arg0) (V c main_v25) (V c main_v26) (V c main_v27) (((cfg0.win 5).blk t).view.emb j)
  refine (pay0_apply _ _ _ _ _ j).trans ?_
  obtain ⟨e0, e1, e2, e3, e4, e5, e6, e7, e8, e9, e10, e11⟩ := idx_facts0 t
  have hj0 : (j 0).val < 10000 := (j 0).isLt
  have hj1 : (j 1).val < 64 := (j 1).isLt
  -- each input block, read where the output block's entry sits in its array
  have r0 : ∀ k : Fin 64, iblk0 V c 0 t (bl j k) = V c main_v24 (Cert.ReferenceIdeal.Read.lidx_main_v24 (((cfg0.win 5).blk t).view.emb j) k) := fun k => by
    show V c main_v24 (((cfg0.win 0).blk t).view.emb (bl j k)) = _
    refine congrArg (V c main_v24) (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 64 + 1 * k.val = k.val; omega
  have r1 : ∀ k : Fin 64, iblk0 V c 1 t (bl j k) = V c main_arg0 (Cert.ReferenceIdeal.Read.lidx_main_v24 (((cfg0.win 5).blk t).view.emb j) k) := fun k => by
    show V c main_arg0 (((cfg0.win 1).blk t).view.emb (bl j k)) = _
    refine congrArg (V c main_arg0) (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 64 + 1 * k.val = k.val; omega
  have r2 : ∀ k : Fin 64, iblk0 V c 2 t (br j k) = V c main_v25 (Cert.ReferenceIdeal.Read.ridx_main_v24 (((cfg0.win 5).blk t).view.emb j) k) := fun k => by
    show V c main_v25 (((cfg0.win 2).blk t).view.emb (br j k)) = _
    refine congrArg (V c main_v25) (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_5.index t (1 : Fin 2) * 64 + 1 * (j 1).val; omega
  have r3 : ∀ k : Fin 64, iblk0 V c 3 t (br j k) = V c main_v26 (Cert.ReferenceIdeal.Read.ridx_main_v24 (((cfg0.win 5).blk t).view.emb j) k) := fun k => by
    show V c main_v26 (((cfg0.win 3).blk t).view.emb (br j k)) = _
    refine congrArg (V c main_v26) (funext fun a => Fin.ext ?_)
    match a with
    | ⟨0, _⟩ => show win0_3.index t (0 : Fin 2) * 64 + 1 * k.val = k.val; omega
    | ⟨1, _⟩ => show win0_3.index t (1 : Fin 2) * 64 + 1 * (j 1).val = win0_5.index t (1 : Fin 2) * 64 + 1 * (j 1).val; omega
  have r4 : iblk0 V c 4 t (brow j) = V c main_v27 (Cert.ReferenceIdeal.Read.idx_main_v29 (((cfg0.win 5).blk t).view.emb j)) := by
    show V c main_v27 (((cfg0.win 4).blk t).view.emb (brow j)) = _
    refine congrArg (V c main_v27) (funext fun a => Fin.ext ?_)
    match a with
    | ⟨0, _⟩ => show win0_4.index t (0 : Fin 2) * 1 + 1 * 0 = 0; omega
    | ⟨1, _⟩ => show win0_4.index t (1 : Fin 2) * 64 + 1 * (j 1).val = win0_5.index t (1 : Fin 2) * 64 + 1 * (j 1).val; omega
  simp only [r0, r1, r2, r3, r4]
  unfold Cert.Sage.layer
  rfl

/-- An index of the result array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v28).slice (win0_5.rect t)).set ↔ _
  rw [View.set_slice_whole, Rect.mem_set_unit]
  exact Iff.rfl

/-- The ten row blocks cover the result array: row `r` is in the block of the point whose row block is `r / 10000`. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE RESULT ARRAY after the launch: the layer of the arrays the launch finds. -/
theorem region0_value (c : Dev nD) :
    (dat0 V c).arrAt 5 cfg0.N = Cert.Sage.layer (V c main_v24) (V c main_arg0) (V c main_v25) (V c main_v26) (V c main_v27) :=
  (dat0 V c).arrAt_eq_of_cover 5 _ (fun t _ => flushed_eq0 V c t) (cover0)

end Cert.KernelIdeal.Hand

end
-- ==== Proof.KRegion1.lean ====
/-
  Layer 2's launch, read as a value. The grid has ten points; point `t` takes rows `10000·t … 10000·t + 9999` of the
  mean and of the features, the whole of the two weight arrays and of the bias row, and writes back the same rows of
  the result. So what point `t` writes back is block `t` of ONE function of the arrays the launch finds — the layer,
  index by index — and the ten blocks cover the result array: after the launch it holds the layer of those arrays.
-/
import proofs.«113997_j68616397521281_1_alg».proof.Proof.Gen.KernelIdeal.Frame
import proofs.«113997_j68616397521281_1_alg».proof.Proof.Layer
import proofs.«113997_j68616397521281_1_alg».proof.Proof.KBlock

set_option maxRecDepth 16384

noncomputable section

namespace Cert.KernelIdeal.Hand

open Cert.KernelIdeal Cert.KernelIdeal.Gen Idealize.ShloMosaic Idealize.ShloMosaic.TcCoe
open Idealize.ShloMosaic.Pipeline (Dat Cfg Window)
open scoped BigOperators

variable (V : (c : Dev nD) → (b : Ref sig .tc) → Buf (Elt Ideal) ((c : Thread nD τ).loc b))

theorem zero2_1 : (![0, 0] : Fin 2 → Nat) = fun _ => 0 := funext fun a => by fin_cases a <;> rfl

/-- The printed index maps, decided over the ten points: the two row-blocked inputs move with the output's row block,
    every other block index is zero, and the output's row block stays below ten. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block is some point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

set_option maxHeartbeats 1600000 in
/-- WHAT POINT `t` WRITES BACK is block `t` of the layer of the arrays as the launch finds them. -/
theorem flushed_eq1 (c : Dev nD) (t : Fin cfg1.N) :
    (dat1 V c).flushed 5 t = ((cfg1.win 5).blk t).view.read (Elt Ideal)
      (Cert.Sage.layer (V c main_v40) (V c main_v28) (V c main_v41) (V c main_v42) (V c main_v43)) := by
  show (cfg1.win 5).cut (grid1.coords t) ((dat1 V c).after 5 t) = _
  rw [after1_5]
  unfold out1_5
  rw [View.canon_unit_zero zero2_1]
  simp only [View.ld_unit_zero (S := S10000x64) zero2_1, View.ld_unit_zero (S := S64x64) zero2_1, View.ld_unit_zero (S := S1x64) zero2_1]
  funext j
  show k1_pay1 (iblk1 V c 0 t) (iblk1 V c 1 t) (iblk1 V c 2 t) (iblk1 V c 3 t) (iblk1 V c 4 t) j
    = Cert.Sage.layer (V c main_v40) (V c main_v28) (V c main_v41) (V c main_v42) (V c main_v43) (((cfg1.win 5).blk t).view.emb j)
  refine (pay1_apply _ _ _ _ _ j).trans ?_
  obtain ⟨e0, e1, e2, e3, e4, e5, e6, e7, e8, e9, e10, e11⟩ := idx_facts1 t
  have hj0 : (j 0).val < 10000 := (j 0).isLt
  have hj1 : (j 1).val < 64 := (j 1).isLt
  -- each input block, read where the output block's entry sits in its array
  have r0 : ∀ k : Fin 64, iblk1 V c 0 t (bl j k) = V c main_v40 (Cert.ReferenceIdeal.Read.lidx_main_v24 (((cfg1.win 5).blk t).view.emb j) k) := fun k => by
    show V c main_v40 (((cfg1.win 0).blk t).view.emb (bl j k)) = _
    refine congrArg (V c main_v40) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  have r1 : ∀ k : Fin 64, iblk1 V c 1 t (bl j k) = V c main_v28 (Cert.ReferenceIdeal.Read.lidx_main_v24 (((cfg1.win 5).blk t).view.emb j) k) := fun k => by
    show V c main_v28 (((cfg1.win 1).blk t).view.emb (bl j k)) = _
    refine congrArg (V c main_v28) (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  have r2 : ∀ k : Fin 64, iblk1 V c 2 t (br j k) = V c main_v41 (Cert.ReferenceIdeal.Read.ridx_main_v24 (((cfg1.win 5).blk t).view.emb j) k) := fun k => by
    show V c main_v41 (((cfg1.win 2).blk t).view.emb (br j k)) = _
    refine congrArg (V c main_v41) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  have r3 : ∀ k : Fin 64, iblk1 V c 3 t (br j k) = V c main_v42 (Cert.ReferenceIdeal.Read.ridx_main_v24 (((cfg1.win 5).blk t).view.emb j) k) := fun k => by
    show V c main_v42 (((cfg1.win 3).blk t).view.emb (br j k)) = _
    refine congrArg (V c main_v42) (funext fun a => Fin.ext ?_)
    match a with
    | ⟨0, _⟩ => show win1_3.index t (0 : Fin 2) * 64 + 1 * k.val = k.val; omega
    | ⟨1, _⟩ => show win1_3.index t (1 : Fin 2) * 64 + 1 * (j 1).val = win1_5.index t (1 : Fin 2) * 64 + 1 * (j 1).val; omega
  have r4 : iblk1 V c 4 t (brow j) = V c main_v43 (Cert.ReferenceIdeal.Read.idx_main_v29 (((cfg1.win 5).blk t).view.emb j)) := by
    show V c main_v43 (((cfg1.win 4).blk t).view.emb (brow j)) = _
    refine congrArg (V c main_v43) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega
  simp only [r0, r1, r2, r3, r4]
  unfold Cert.Sage.layer
  rfl

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v44).slice (win1_5.rect t)).set ↔ _
  rw [View.set_slice_whole, Rect.mem_set_unit]
  exact Iff.rfl

/-- The ten row blocks cover the result array: row `r` is in the block of the point whose row block is `r / 10000`. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE RESULT ARRAY after the launch: the layer of the arrays the launch finds. -/
theorem region1_value (c : Dev nD) :
    (dat1 V c).arrAt 5 cfg1.N = Cert.Sage.layer (V c main_v40) (V c main_v28) (V c main_v41) (V c main_v42) (V c main_v43) :=
  (dat1 V c).arrAt_eq_of_cover 5 _ (fun t _ => flushed_eq1 V c t) (cover1)

end Cert.KernelIdeal.Hand

end
-- ==== Proof.KRegion2.lean ====
/-
  Layer 3's launch, read as a value. The grid has ten points; point `t` takes rows `10000·t … 10000·t + 9999` of the
  mean and of the features, the whole of the two weight arrays and of the bias row, and writes back the same rows of
  the result. So what point `t` writes back is block `t` of ONE function of the arrays the launch finds — the layer,
  index by index — and the ten blocks cover the result array: after the launch it holds the layer of those arrays.
-/
import proofs.«113997_j68616397521281_1_alg».proof.Proof.Gen.KernelIdeal.Frame
import proofs.«113997_j68616397521281_1_alg».proof.Proof.Layer
import proofs.«113997_j68616397521281_1_alg».proof.Proof.KBlock

set_option maxRecDepth 16384

noncomputable section

namespace Cert.KernelIdeal.Hand

open Cert.KernelIdeal Cert.KernelIdeal.Gen Idealize.ShloMosaic Idealize.ShloMosaic.TcCoe
open Idealize.ShloMosaic.Pipeline (Dat Cfg Window)
open scoped BigOperators

variable (V : (c : Dev nD) → (b : Ref sig .tc) → Buf (Elt Ideal) ((c : Thread nD τ).loc b))

theorem zero2_2 : (![0, 0] : Fin 2 → Nat) = fun _ => 0 := funext fun a => by fin_cases a <;> rfl

/-- The printed index maps, decided over the ten points: the two row-blocked inputs move with the output's row block,
    every other block index is zero, and the output's row block stays below ten. -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every row block is some point's. -/
theorem idx_onto2 : ∀ q0 : Fin 10, ∃ t : Fin cfg2.N, win2_5.index t = ![q0.val, 0] :=
  (by decide +kernel : ∀ q0 : Fin 10, ∃ t : Fin grid2.N, win2_5.index t = ![q0.val, 0])

set_option maxHeartbeats 1600000 in
/-- WHAT POINT `t` WRITES BACK is block `t` of the layer of the arrays as the launch finds them. -/
theorem flushed_eq2 (c : Dev nD) (t : Fin cfg2.N) :
    (dat2 V c).flushed 5 t = ((cfg2.win 5).blk t).view.read (Elt Ideal)
      (Cert.Sage.layer (V c main_v56) (V c main_v44) (V c main_v57) (V c main_v58) (V c main_v59)) := by
  show (cfg2.win 5).cut (grid2.coords t) ((dat2 V c).after 5 t) = _
  rw [after2_5]
  unfold out2_5
  rw [View.canon_unit_zero zero2_2]
  simp only [View.ld_unit_zero (S := S10000x64) zero2_2, View.ld_unit_zero (S := S64x64) zero2_2, View.ld_unit_zero (S := S1x64) zero2_2]
  funext j
  show k2_pay1 (iblk2 V c 0 t) (iblk2 V c 1 t) (iblk2 V c 2 t) (iblk2 V c 3 t) (iblk2 V c 4 t) j
    = Cert.Sage.layer (V c main_v56) (V c main_v44) (V c main_v57) (V c main_v58) (V c main_v59) (((cfg2.win 5).blk t).view.emb j)
  refine (pay2_apply _ _ _ _ _ j).trans ?_
  obtain ⟨e0, e1, e2, e3, e4, e5, e6, e7, e8, e9, e10, e11⟩ := idx_facts2 t
  have hj0 : (j 0).val < 10000 := (j 0).isLt
  have hj1 : (j 1).val < 64 := (j 1).isLt
  -- each input block, read where the output block's entry sits in its array
  have r0 : ∀ k : Fin 64, iblk2 V c 0 t (bl j k) = V c main_v56 (Cert.ReferenceIdeal.Read.lidx_main_v24 (((cfg2.win 5).blk t).view.emb j) k) := fun k => by
    show V c main_v56 (((cfg2.win 0).blk t).view.emb (bl j k)) = _
    refine congrArg (V c main_v56) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * k.val = k.val; omega
  have r1 : ∀ k : Fin 64, iblk2 V c 1 t (bl j k) = V c main_v44 (Cert.ReferenceIdeal.Read.lidx_main_v24 (((cfg2.win 5).blk t).view.emb j) k) := fun k => by
    show V c main_v44 (((cfg2.win 1).blk t).view.emb (bl j k)) = _
    refine congrArg (V c main_v44) (funext fun a => Fin.ext ?_)
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 64 + 1 * k.val = k.val; omega
  have r2 : ∀ k : Fin 64, iblk2 V c 2 t (br j k) = V c main_v57 (Cert.ReferenceIdeal.Read.ridx_main_v24 (((cfg2.win 5).blk t).view.emb j) k) := fun k => by
    show V c main_v57 (((cfg2.win 2).blk t).view.emb (br j k)) = _
    refine congrArg (V c main_v57) (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_5.index t (1 : Fin 2) * 64 + 1 * (j 1).val; omega
  have r3 : ∀ k : Fin 64, iblk2 V c 3 t (br j k) = V c main_v58 (Cert.ReferenceIdeal.Read.ridx_main_v24 (((cfg2.win 5).blk t).view.emb j) k) := fun k => by
    show V c main_v58 (((cfg2.win 3).blk t).view.emb (br j k)) = _
    refine congrArg (V c main_v58) (funext fun a => Fin.ext ?_)
    match a with
    | ⟨0, _⟩ => show win2_3.index t (0 : Fin 2) * 64 + 1 * k.val = k.val; omega
    | ⟨1, _⟩ => show win2_3.index t (1 : Fin 2) * 64 + 1 * (j 1).val = win2_5.index t (1 : Fin 2) * 64 + 1 * (j 1).val; omega
  have r4 : iblk2 V c 4 t (brow j) = V c main_v59 (Cert.ReferenceIdeal.Read.idx_main_v29 (((cfg2.win 5).blk t).view.emb j)) := by
    show V c main_v59 (((cfg2.win 4).blk t).view.emb (brow j)) = _
    refine congrArg (V c main_v59) (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega
  simp only [r0, r1, r2, r3, r4]
  unfold Cert.Sage.layer
  rfl

/-- An index of the result array is in point `t`'s block iff each coordinate is in the block's range on its axis. -/
theorem mem_blk2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v60).slice (win2_5.rect t)).set ↔ _
  rw [View.set_slice_whole, Rect.mem_set_unit]
  exact Iff.rfl

/-- The ten row blocks cover the result array: row `r` is in the block of the point whose row block is `r / 10000`. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- THE RESULT ARRAY after the launch: the layer of the arrays the launch finds. -/
theorem region2_value (c : Dev nD) :
    (dat2 V c).arrAt 5 cfg2.N = Cert.Sage.layer (V c main_v56) (V c main_v44) (V c main_v57) (V c main_v58) (V c main_v59) :=
  (dat2 V c).arrAt_eq_of_cover 5 _ (fun t _ => flushed_eq2 V c t) (cover2)

end Cert.KernelIdeal.Hand

end
-- ==== Proof.KRegion3.lean ====
/-
  Layer 4's launch, read as a value. The grid has ten points; point `t` takes rows `10000·t … 10000·t + 9999` of the
  mean and of the features, the whole of the two weight arrays and of the bias row, and writes back the same rows of
  the result. So what point `t` writes back is block `t` of ONE function of the arrays the launch finds — the layer,
  index by index — and the ten blocks cover the result array: after the launch it holds the layer of those arrays.
-/
import proofs.«113997_j68616397521281_1_alg».proof.Proof.Gen.KernelIdeal.Frame
import proofs.«113997_j68616397521281_1_alg».proof.Proof.Layer
import proofs.«113997_j68616397521281_1_alg».proof.Proof.KBlock

set_option maxRecDepth 16384

noncomputable section

namespace Cert.KernelIdeal.Hand

open Cert.KernelIdeal Cert.KernelIdeal.Gen Idealize.ShloMosaic Idealize.ShloMosaic.TcCoe
open Idealize.ShloMosaic.Pipeline (Dat Cfg Window)
open scoped BigOperators

variable (V : (c : Dev nD) → (b : Ref sig .tc) → Buf (Elt Ideal) ((c : Thread nD τ).loc b))

theorem zero2_3 : (![0, 0] : Fin 2 → Nat) = fun _ => 0 := funext fun a => by fin_cases a <;> rfl

/-- The printed index maps, decided over the ten points: the two row-blocked inputs move with the output's row block,
    every other block index is zero, and the output's row block stays below ten. -/
theorem idx_facts3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every row block is some point's. -/
theorem idx_onto3 : ∀ q0 : Fin 10, ∃ t : Fin cfg3.N, win3_5.index t = ![q0.val, 0] :=
  (by decide +kernel : ∀ q0 : Fin 10, ∃ t : Fin grid3.N, win3_5.index t = ![q0.val, 0])

set_option maxHeartbeats 1600000 in
/-- WHAT POINT `t` WRITES BACK is block `t` of the layer of the arrays as the launch finds them. -/
theorem flushed_eq3 (c : Dev nD) (t : Fin cfg3.N) :
    (dat3 V c).flushed 5 t = ((cfg3.win 5).blk t).view.read (Elt Ideal)
      (Cert.Sage.layer (V c main_v72) (V c main_v60) (V c main_v73) (V c main_v74) (V c main_v75)) := by
  show (cfg3.win 5).cut (grid3.coords t) ((dat3 V c).after 5 t) = _
  rw [after3_5]
  unfold out3_5
  rw [View.canon_unit_zero zero2_3]
  simp only [View.ld_unit_zero (S := S10000x64) zero2_3, View.ld_unit_zero (S := S64x64) zero2_3, View.ld_unit_zero (S := S1x64) zero2_3]
  funext j
  show k3_pay1 (iblk3 V c 0 t) (iblk3 V c 1 t) (iblk3 V c 2 t) (iblk3 V c 3 t) (iblk3 V c 4 t) j
    = Cert.Sage.layer (V c main_v72) (V c main_v60) (V c main_v73) (V c main_v74) (V c main_v75) (((cfg3.win 5).blk t).view.emb j)
  refine (pay3_apply _ _ _ _ _ j).trans ?_
  obtain ⟨e0, e1, e2, e3, e4, e5, e6, e7, e8, e9, e10, e11⟩ := idx_facts3 t
  have hj0 : (j 0).val < 10000 := (j 0).isLt
  have hj1 : (j 1).val < 64 := (j 1).isLt
  -- each input block, read where the output block's entry sits in its array
  have r0 : ∀ k : Fin 64, iblk3 V c 0 t (bl j k) = V c main_v72 (Cert.ReferenceIdeal.Read.lidx_main_v24 (((cfg3.win 5).blk t).view.emb j) k) := fun k => by
    show V c main_v72 (((cfg3.win 0).blk t).view.emb (bl j k)) = _
    refine congrArg (V c main_v72) (funext fun a => Fin.ext ?_)
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 64 + 1 * k.val = k.val; omega
  have r1 : ∀ k : Fin 64, iblk3 V c 1 t (bl j k) = V c main_v60 (Cert.ReferenceIdeal.Read.lidx_main_v24 (((cfg3.win 5).blk t).view.emb j) k) := fun k => by
    show V c main_v60 (((cfg3.win 1).blk t).view.emb (bl j k)) = _
    refine congrArg (V c main_v60) (funext fun a => Fin.ext ?_)
    match a with
    | ⟨0, _⟩ => show win3_1.index t (0 : Fin 2) * 10000 + 1 * (j 0).val = win3_5.index t (0 : Fin 2) * 10000 + 1 * (j 0).val; omega
    | ⟨1, _⟩ => show win3_1.index t (1 : Fin 2) * 64 + 1 * k.val = k.val; omega
  have r2 : ∀ k : Fin 64, iblk3 V c 2 t (br j k) = V c main_v73 (Cert.ReferenceIdeal.Read.ridx_main_v24 (((cfg3.win 5).blk t).view.emb j) k) := fun k => by
    show V c main_v73 (((cfg3.win 2).blk t).view.emb (br j k)) = _
    refine congrArg (V c main_v73) (funext fun a => Fin.ext ?_)
    match a with
    | ⟨0, _⟩ => show win3_2.index t (0 : Fin 2) * 64 + 1 * k.val = k.val; omega
    | ⟨1, _⟩ => show win3_2.index t (1 : Fin 2) * 64 + 1 * (j 1).val = win3_5.index t (1 : Fin 2) * 64 + 1 * (j 1).val; omega
  have r3 : ∀ k : Fin 64, iblk3 V c 3 t (br j k) = V c main_v74 (Cert.ReferenceIdeal.Read.ridx_main_v24 (((cfg3.win 5).blk t).view.emb j) k) := fun k => by
    show V c main_v74 (((cfg3.win 3).blk t).view.emb (br j k)) = _
    refine congrArg (V c main_v74) (funext fun a => Fin.ext ?_)
    match a with
    | ⟨0, _⟩ => show win3_3.index t (0 : Fin 2) * 64 + 1 * k.val = k.val; omega
    | ⟨1, _⟩ => show win3_3.index t (1 : Fin 2) * 64 + 1 * (j 1).val = win3_5.index t (1 : Fin 2) * 64 + 1 * (j 1).val; omega
  have r4 : iblk3 V c 4 t (brow j) = V c main_v75 (Cert.ReferenceIdeal.Read.idx_main_v29 (((cfg3.win 5).blk t).view.emb j)) := by
    show V c main_v75 (((cfg3.win 4).blk t).view.emb (brow j)) = _
    refine congrArg (V c main_v75) (funext fun a => Fin.ext ?_)
    match a with
    | ⟨0, _⟩ => show win3_4.index t (0 : Fin 2) * 1 + 1 * 0 = 0; omega
    | ⟨1, _⟩ => show win3_4.index t (1 : Fin 2) * 64 + 1 * (j 1).val = win3_5.index t (1 : Fin 2) * 64 + 1 * (j 1).val; omega
  simp only [r0, r1, r2, r3, r4]
  unfold Cert.Sage.layer
  rfl

/-- An index of the result array is in point `t`'s block iff each coordinate is in the block's range on its axis. -/
theorem mem_blk3 (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v76).slice (win3_5.rect t)).set ↔ _
  rw [View.set_slice_whole, Rect.mem_set_unit]
  exact Iff.rfl

/-- The ten row blocks cover the result array: row `r` is in the block of the point whose row block is `r / 10000`. -/
theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx_onto3 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- THE RESULT ARRAY after the launch: the layer of the arrays the launch finds. -/
theorem region3_value (c : Dev nD) :
    (dat3 V c).arrAt 5 cfg3.N = Cert.Sage.layer (V c main_v72) (V c main_v60) (V c main_v73) (V c main_v74) (V c main_v75) :=
  (dat3 V c).arrAt_eq_of_cover 5 _ (fun t _ => flushed_eq3 V c t) (cover3)

end Cert.KernelIdeal.Hand

end
-- ==== Proof.KRegion4.lean ====
/-
  The read-out's launch, read as a value. The grid has ten points; point `t` takes rows `10000·t … 10000·t + 9999` of the
  last layer's features, the whole 64×10 weight array and the bias row, and writes back the same rows of the 100000×10
  result. What point `t` writes back is block `t` of the read-out of the arrays the launch finds, and the ten blocks cover
  the result array.
-/
import proofs.«113997_j68616397521281_1_alg».proof.Proof.Gen.KernelIdeal.Frame
import proofs.«113997_j68616397521281_1_alg».proof.Proof.Layer
import proofs.«113997_j68616397521281_1_alg».proof.Proof.KBlock

set_option maxRecDepth 16384

noncomputable section

namespace Cert.KernelIdeal.Hand

open Cert.KernelIdeal Cert.KernelIdeal.Gen Idealize.ShloMosaic Idealize.ShloMosaic.TcCoe
open Idealize.ShloMosaic.Pipeline (Dat Cfg Window)
open scoped BigOperators

variable (V : (c : Dev nD) → (b : Ref sig .tc) → Buf (Elt Ideal) ((c : Thread nD τ).loc b))

theorem zero2_4 : (![0, 0] : Fin 2 → Nat) = fun _ => 0 := funext fun a => by fin_cases a <;> rfl

/-- The printed index maps, decided over the ten points: the row-blocked input moves with the output's row block, every
    other block index is zero, and the output's row block stays below ten. -/
theorem idx_facts4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every row block is some point's. -/
theorem idx_onto4 : ∀ q0 : Fin 10, ∃ t : Fin cfg4.N, win4_3.index t = ![q0.val, 0] :=
  (by decide +kernel : ∀ q0 : Fin 10, ∃ t : Fin grid4.N, win4_3.index t = ![q0.val, 0])

set_option maxHeartbeats 1600000 in
/-- WHAT POINT `t` WRITES BACK is block `t` of the read-out of the arrays as the launch finds them. -/
theorem flushed_eq4 (c : Dev nD) (t : Fin cfg4.N) :
    (dat4 V c).flushed 3 t = ((cfg4.win 3).blk t).view.read (Elt Ideal)
      (Cert.Sage.readout (V c main_v76) (V c main_v77) (V c main_v78)) := by
  show (cfg4.win 3).cut (grid4.coords t) ((dat4 V c).after 3 t) = _
  rw [after4_3]
  unfold out4_3
  rw [View.canon_unit_zero zero2_4]
  simp only [View.ld_unit_zero (S := S10000x64) zero2_4, View.ld_unit_zero (S := S64x10) zero2_4, View.ld_unit_zero (S := S1x10) zero2_4]
  funext j
  show k4_pay1 (iblk4 V c 0 t) (iblk4 V c 1 t) (iblk4 V c 2 t) j
    = Cert.Sage.readout (V c main_v76) (V c main_v77) (V c main_v78) (((cfg4.win 3).blk t).view.emb j)
  refine (pay4_apply _ _ _ j).trans ?_
  obtain ⟨e0, e1, e2, e3, e4, e5, e6, e7⟩ := idx_facts4 t
  have hj0 : (j 0).val < 10000 := (j 0).isLt
  have hj1 : (j 1).val < 10 := (j 1).isLt
  have r0 : ∀ k : Fin 64, iblk4 V c 0 t (blF j k) = V c main_v76 (Cert.ReferenceIdeal.Read.lidx_main_v117 (((cfg4.win 3).blk t).view.emb j) k) := fun k => by
    show V c main_v76 (((cfg4.win 0).blk t).view.emb (blF j k)) = _
    refine congrArg (V c main_v76) (funext fun a => Fin.ext ?_)
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 64 + 1 * k.val = k.val; omega
  have r1 : ∀ k : Fin 64, iblk4 V c 1 t (brF j k) = V c main_v77 (Cert.ReferenceIdeal.Read.ridx_main_v117 (((cfg4.win 3).blk t).view.emb j) k) := fun k => by
    show V c main_v77 (((cfg4.win 1).blk t).view.emb (brF j k)) = _
    refine congrArg (V c main_v77) (funext fun a => Fin.ext ?_)
    match a with
    | ⟨0, _⟩ => show win4_1.index t (0 : Fin 2) * 64 + 1 * k.val = k.val; omega
    | ⟨1, _⟩ => show win4_1.index t (1 : Fin 2) * 10 + 1 * (j 1).val = win4_3.index t (1 : Fin 2) * 10 + 1 * (j 1).val; omega
  have r2 : iblk4 V c 2 t (browF j) = V c main_v78 (Cert.ReferenceIdeal.Read.idx_main_v119 (((cfg4.win 3).blk t).view.emb j)) := by
    show V c main_v78 (((cfg4.win 2).blk t).view.emb (browF j)) = _
    refine congrArg (V c main_v78) (funext fun a => Fin.ext ?_)
    match a with
    | ⟨0, _⟩ => show win4_2.index t (0 : Fin 2) * 1 + 1 * 0 = 0; omega
    | ⟨1, _⟩ => show win4_2.index t (1 : Fin 2) * 10 + 1 * (j 1).val = win4_3.index t (1 : Fin 2) * 10 + 1 * (j 1).val; omega
  simp only [r0, r1, r2]
  unfold Cert.Sage.readout
  rfl

/-- An index of the result array is in point `t`'s block iff each coordinate is in the block's range on its axis. -/
theorem mem_blk4 (t : Fin cfg4.N) (i : S100000x10.Idx) :
    i ∈ ((cfg4.win 3).blk t).view.set ↔ ∀ a : Fin 2, win4_3.index t a * S10000x10.size a ≤ (i a).val ∧ (i a).val < win4_3.index t a * S10000x10.size a + S10000x10.size a := by
  show i ∈ ((View.whole main_v79).slice (win4_3.rect t)).set ↔ _
  rw [View.set_slice_whole, Rect.mem_set_unit]
  exact Iff.rfl

/-- The ten row blocks cover the result array. -/
theorem cover4 (i : S100000x10.Idx) : ∃ t : Fin cfg4.N, (cfg4.win 3).flush t = true ∧ i ∈ ((cfg4.win 3).blk t).view.set := by
  have hi0 : (i 0).val < 100000 := (i 0).isLt
  have hi1 : (i 1).val < 10 := (i 1).isLt
  obtain ⟨t, ht⟩ := idx_onto4 ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 10 ≤ (i 1).val ∧ (i 1).val < win4_3.index t (1 : Fin 2) * 10 + 10; omega

/-- THE RESULT ARRAY after the launch: the read-out of the arrays the launch finds. -/
theorem region4_value (c : Dev nD) :
    (dat4 V c).arrAt 3 cfg4.N = Cert.Sage.readout (V c main_v76) (V c main_v77) (V c main_v78) :=
  (dat4 V c).arrAt_eq_of_cover 3 _ (fun t _ => flushed_eq4 V c t) (cover4)

end Cert.KernelIdeal.Hand

end
-- ==== Proof.KHostDefs.lean ====
/-
  The host side of the network program, named. Between two launches the program gathers the current features along the
  edges' source ends (negative ends wrapped by the number of nodes), scatter-adds them at the destination ends, and
  multiplies the aggregate by a per-node reciprocal column broadcast along the features; the reciprocal column
  `1 / max count 1` is computed ONCE, before the first launch, from the destination ends alone. `kmean` is that mean as
  a function of the features, the two index arrays and the reciprocal column; `srcK`, `dstK`, `invK` are the three
  arrays as functions of the edge list.
-/
import proofs.«113997_j68616397521281_1_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

/-- A stretch of host operations leaves a buffer that none of them writes as it was. -/
macro "host_keep" : tactic => `(tactic| (
  refine StableHlo.after_of_forall_not_mem _ _ (List.forall_iff_forall_mem.mp ?_)
  simp only [hostOps0, hostOps1, hostOps2, hostOps3, hostOps4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The mean over arriving edges: gather at the (wrapped) source ends, scatter-add at the destination ends, times the
    reciprocal column broadcast along the features. -/
def kmean (x : FVec Ideal S100000x64 .f32) (src dst : IVec S1250000 32) (inv : FVec Ideal S100000x1 .f32) : FVec Ideal S100000x64 .f32 :=
  mulf
    (Host.scatterAdd scatter_S100000x64_S1250000x1_S1250000x64_1_0_0_1
      (broadcastInDim S100000x64 ![] bcast_S_S100000x64 (constant S_ .f32 0x00000000#32))
      (broadcastInDim S1250000x1 ![0] bcast_S1250000_S1250000x1_0 dst)
      (Host.gather gather_S100000x64_S1250000x1_S1250000x64_1_0_n_n_0_1_164 x
        (broadcastInDim S1250000x1 ![0] bcast_S1250000_S1250000x1_0
          (select (cmpi .slt src (broadcastInDim S1250000 ![] bcast_S_S1250000 (constantI S_ 32 0#32)))
            (addi src (broadcastInDim S1250000 ![] bcast_S_S1250000 (constantI S_ 32 100000#32))) src))))
    (broadcastInDim S100000x64 ![0, 1] bcast_S100000x1_S100000x64_0_1 inv)

/-- The edges' source ends: row 0 of the edge list. -/
def srcK (e : IVec S2x1250000 32) : IVec S1250000 32 :=
  shapeCast S1250000 (extractStridedSlice S1x1250000 ![0, 0] e slices_S2x1250000_S1x1250000_0_0) shapeCasts_S1x1250000_S1250000
/-- The edges' destination ends: row 1 of the edge list. -/
def dstK (e : IVec S2x1250000 32) : IVec S1250000 32 :=
  shapeCast S1250000 (extractStridedSlice S1x1250000 ![1, 0] e slices_S2x1250000_S1x1250000_1_0) shapeCasts_S1x1250000_S1250000
/-- The reciprocal column: `1 / max (number of arriving edges) 1` per node, as a 100000×1 array. -/
def invK (e : IVec S2x1250000 32) : FVec Ideal S100000x1 .f32 :=
  broadcastInDim S100000x1 ![0] bcast_S100000_S100000x1_0
    (Host.divf (broadcastInDim S100000 ![] bcast_S_S100000 (constant S_ .f32 0x3F800000#32))
      (maximumf
        (Host.scatterAdd scatter_S100000_S1250000x1_S1250000_n_0_0_1
          (broadcastInDim S100000 ![] bcast_S_S100000 (constant S_ .f32 0x00000000#32))
          (broadcastInDim S1250000x1 ![0] bcast_S1250000_S1250000x1_0 (dstK e))
          (broadcastInDim S1250000 ![] bcast_S_S1250000 (constant S_ .f32 0x3F800000#32)))
        (broadcastInDim S100000 ![] bcast_S_S100000 (constant S_ .f32 0x3F800000#32))))

end Cert.KernelIdeal.Hand

end
-- ==== Proof.KHost0.lean ====
/-
  The host operations before the first launch, read at the buffers the first launch and the later stretches take: the
  mean of the argument features, the argument features themselves, the two transposed weight arrays, the bias as a row,
  and the three arrays every later stretch reuses (source ends, destination ends, reciprocal column).
-/
import proofs.«113997_j68616397521281_1_alg».proof.Proof.Gen.KernelIdeal.Frame
import Idealize.ShloMosaic.Lib.StableHlo.Run
import Idealize.ShloMosaic.PureOps.Ideal
import proofs.«113997_j68616397521281_1_alg».proof.Proof.KHostDefs

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem s0_mean : W1 m ρ c (Proc.devRef .tc main_v24)
    = kmean (m ((c : Thread nD τ).loc main_arg0)) (srcK (m ((c : Thread nD τ).loc main_arg1))) (dstK (m ((c : Thread nD τ).loc main_arg1))) (invK (m ((c : Thread nD τ).loc main_arg1))) := by
  show StableHlo.after hostOps0 (W0 m ρ c) (Proc.devRef .tc main_v24) = _
  after_results_simp
  unfold kmean srcK dstK invK
  rfl

theorem s0_x : W1 m ρ c (Proc.devRef .tc main_arg0) = m ((c : Thread nD τ).loc main_arg0) := by
  show StableHlo.after hostOps0 (W0 m ρ c) (Proc.devRef .tc main_arg0) = W0 m ρ c (Proc.devRef .tc main_arg0)
  host_keep

theorem s0_wl : W1 m ρ c (Proc.devRef .tc main_v25) = transpose S64x64 [1, 0] (m ((c : Thread nD τ).loc main_arg2)) transposes_S64x64_S64x64_1_0 := by
  show StableHlo.after hostOps0 (W0 m ρ c) (Proc.devRef .tc main_v25) = _
  after_results_simp
  try rfl

theorem s0_wr : W1 m ρ c (Proc.devRef .tc main_v26) = transpose S64x64 [1, 0] (m ((c : Thread nD τ).loc main_arg3)) transposes_S64x64_S64x64_1_0 := by
  show StableHlo.after hostOps0 (W0 m ρ c) (Proc.devRef .tc main_v26) = _
  after_results_simp
  try rfl

theorem s0_b : W1 m ρ c (Proc.devRef .tc main_v27) = shapeCast S1x64 (m ((c : Thread nD τ).loc main_arg4)) shapeCasts_S64_S1x64 := by
  show StableHlo.after hostOps0 (W0 m ρ c) (Proc.devRef .tc main_v27) = _
  after_results_simp
  try rfl

theorem s0_src : W1 m ρ c (Proc.devRef .tc main_v1) = srcK (m ((c : Thread nD τ).loc main_arg1)) := by
  show StableHlo.after hostOps0 (W0 m ρ c) (Proc.devRef .tc main_v1) = _
  after_results_simp
  unfold srcK
  try rfl

theorem s0_dst : W1 m ρ c (Proc.devRef .tc main_v3) = dstK (m ((c : Thread nD τ).loc main_arg1)) := by
  show StableHlo.after hostOps0 (W0 m ρ c) (Proc.devRef .tc main_v3) = _
  after_results_simp
  unfold dstK
  try rfl

theorem s0_inv : W1 m ρ c (Proc.devRef .tc main_v12) = invK (m ((c : Thread nD τ).loc main_arg1)) := by
  show StableHlo.after hostOps0 (W0 m ρ c) (Proc.devRef .tc main_v12) = _
  after_results_simp
  unfold invK dstK
  try rfl

end Cert.KernelIdeal.Hand

end
-- ==== Proof.KHost1.lean ====
/-
  The host operations between launch 1 and launch 2, read at the buffers launch 2 takes: the mean of the features launch 1
  left (over the index arrays and the reciprocal column computed before the first launch), those features themselves,
  layer 2's two transposed weight arrays and its bias as a row.
-/
import proofs.«113997_j68616397521281_1_alg».proof.Proof.Gen.KernelIdeal.Frame
import Idealize.ShloMosaic.Lib.StableHlo.Run
import Idealize.ShloMosaic.PureOps.Ideal
import proofs.«113997_j68616397521281_1_alg».proof.Proof.KHostDefs

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem s1_mean : W3 m ρ c (Proc.devRef .tc main_v40)
    = kmean (W2 m ρ c (Proc.devRef .tc main_v28)) (W2 m ρ c (Proc.devRef .tc main_v1)) (W2 m ρ c (Proc.devRef .tc main_v3)) (W2 m ρ c (Proc.devRef .tc main_v12)) := by
  show StableHlo.after hostOps1 (W2 m ρ c) (Proc.devRef .tc main_v40) = _
  after_results_simp
  unfold kmean
  try rfl

theorem s1_x : W3 m ρ c (Proc.devRef .tc main_v28) = W2 m ρ c (Proc.devRef .tc main_v28) := by
  show StableHlo.after hostOps1 (W2 m ρ c) (Proc.devRef .tc main_v28) = W2 m ρ c (Proc.devRef .tc main_v28)
  host_keep

theorem s1_wl : W3 m ρ c (Proc.devRef .tc main_v41) = transpose S64x64 [1, 0] (W2 m ρ c (Proc.devRef .tc main_arg5)) transposes_S64x64_S64x64_1_0 := by
  show StableHlo.after hostOps1 (W2 m ρ c) (Proc.devRef .tc main_v41) = _
  after_results_simp
  try rfl

theorem s1_wr : W3 m ρ c (Proc.devRef .tc main_v42) = transpose S64x64 [1, 0] (W2 m ρ c (Proc.devRef .tc main_arg6)) transposes_S64x64_S64x64_1_0 := by
  show StableHlo.after hostOps1 (W2 m ρ c) (Proc.devRef .tc main_v42) = _
  after_results_simp
  try rfl

theorem s1_b : W3 m ρ c (Proc.devRef .tc main_v43) = shapeCast S1x64 (W2 m ρ c (Proc.devRef .tc main_arg7)) shapeCasts_S64_S1x64 := by
  show StableHlo.after hostOps1 (W2 m ρ c) (Proc.devRef .tc main_v43) = _
  after_results_simp
  try rfl

end Cert.KernelIdeal.Hand

end
-- ==== Proof.KHost2.lean ====
/-
  The host operations between launch 2 and launch 3, read at the buffers launch 3 takes: the mean of the features launch 2
  left (over the index arrays and the reciprocal column computed before the first launch), those features themselves,
  layer 3's two transposed weight arrays and its bias as a row.
-/
import proofs.«113997_j68616397521281_1_alg».proof.Proof.Gen.KernelIdeal.Frame
import Idealize.ShloMosaic.Lib.StableHlo.Run
import Idealize.ShloMosaic.PureOps.Ideal
import proofs.«113997_j68616397521281_1_alg».proof.Proof.KHostDefs

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem s2_mean : W5 m ρ c (Proc.devRef .tc main_v56)
    = kmean (W4 m ρ c (Proc.devRef .tc main_v44)) (W4 m ρ c (Proc.devRef .tc main_v1)) (W4 m ρ c (Proc.devRef .tc main_v3)) (W4 m ρ c (Proc.devRef .tc main_v12)) := by
  show StableHlo.after hostOps2 (W4 m ρ c) (Proc.devRef .tc main_v56) = _
  after_results_simp
  unfold kmean
  try rfl

theorem s2_x : W5 m ρ c (Proc.devRef .tc main_v44) = W4 m ρ c (Proc.devRef .tc main_v44) := by
  show StableHlo.after hostOps2 (W4 m ρ c) (Proc.devRef .tc main_v44) = W4 m ρ c (Proc.devRef .tc main_v44)
  host_keep

theorem s2_wl : W5 m ρ c (Proc.devRef .tc main_v57) = transpose S64x64 [1, 0] (W4 m ρ c (Proc.devRef .tc main_arg8)) transposes_S64x64_S64x64_1_0 := by
  show StableHlo.after hostOps2 (W4 m ρ c) (Proc.devRef .tc main_v57) = _
  after_results_simp
  try rfl

theorem s2_wr : W5 m ρ c (Proc.devRef .tc main_v58) = transpose S64x64 [1, 0] (W4 m ρ c (Proc.devRef .tc main_arg9)) transposes_S64x64_S64x64_1_0 := by
  show StableHlo.after hostOps2 (W4 m ρ c) (Proc.devRef .tc main_v58) = _
  after_results_simp
  try rfl

theorem s2_b : W5 m ρ c (Proc.devRef .tc main_v59) = shapeCast S1x64 (W4 m ρ c (Proc.devRef .tc main_arg10)) shapeCasts_S64_S1x64 := by
  show StableHlo.after hostOps2 (W4 m ρ c) (Proc.devRef .tc main_v59) = _
  after_results_simp
  try rfl

end Cert.KernelIdeal.Hand

end
-- ==== Proof.KHost3.lean ====
/-
  The host operations between launch 3 and launch 4, read at the buffers launch 4 takes: the mean of the features launch 3
  left (over the index arrays and the reciprocal column computed before the first launch), those features themselves,
  layer 4's two transposed weight arrays and its bias as a row.
-/
import proofs.«113997_j68616397521281_1_alg».proof.Proof.Gen.KernelIdeal.Frame
import Idealize.ShloMosaic.Lib.StableHlo.Run
import Idealize.ShloMosaic.PureOps.Ideal
import proofs.«113997_j68616397521281_1_alg».proof.Proof.KHostDefs

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem s3_mean : W7 m ρ c (Proc.devRef .tc main_v72)
    = kmean (W6 m ρ c (Proc.devRef .tc main_v60)) (W6 m ρ c (Proc.devRef .tc main_v1)) (W6 m ρ c (Proc.devRef .tc main_v3)) (W6 m ρ c (Proc.devRef .tc main_v12)) := by
  show StableHlo.after hostOps3 (W6 m ρ c) (Proc.devRef .tc main_v72) = _
  after_results_simp
  unfold kmean
  try rfl

theorem s3_x : W7 m ρ c (Proc.devRef .tc main_v60) = W6 m ρ c (Proc.devRef .tc main_v60) := by
  show StableHlo.after hostOps3 (W6 m ρ c) (Proc.devRef .tc main_v60) = W6 m ρ c (Proc.devRef .tc main_v60)
  host_keep

theorem s3_wl : W7 m ρ c (Proc.devRef .tc main_v73) = transpose S64x64 [1, 0] (W6 m ρ c (Proc.devRef .tc main_arg11)) transposes_S64x64_S64x64_1_0 := by
  show StableHlo.after hostOps3 (W6 m ρ c) (Proc.devRef .tc main_v73) = _
  after_results_simp
  try rfl

theorem s3_wr : W7 m ρ c (Proc.devRef .tc main_v74) = transpose S64x64 [1, 0] (W6 m ρ c (Proc.devRef .tc main_arg12)) transposes_S64x64_S64x64_1_0 := by
  show StableHlo.after hostOps3 (W6 m ρ c) (Proc.devRef .tc main_v74) = _
  after_results_simp
  try rfl

theorem s3_b : W7 m ρ c (Proc.devRef .tc main_v75) = shapeCast S1x64 (W6 m ρ c (Proc.devRef .tc main_arg13)) shapeCasts_S64_S1x64 := by
  show StableHlo.after hostOps3 (W6 m ρ c) (Proc.devRef .tc main_v75) = _
  after_results_simp
  try rfl

end Cert.KernelIdeal.Hand

end
-- ==== Proof.KHost4.lean ====
/-
  The host operations between the last layer's launch and the read-out's launch, read at the buffers the read-out takes:
  the last layer's features, the read-out's transposed weight array and its bias as a row.
-/
import proofs.«113997_j68616397521281_1_alg».proof.Proof.Gen.KernelIdeal.Frame
import Idealize.ShloMosaic.Lib.StableHlo.Run
import Idealize.ShloMosaic.PureOps.Ideal
import proofs.«113997_j68616397521281_1_alg».proof.Proof.KHostDefs

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem s4_x : W9 m ρ c (Proc.devRef .tc main_v76) = W8 m ρ c (Proc.devRef .tc main_v76) := by
  show StableHlo.after hostOps4 (W8 m ρ c) (Proc.devRef .tc main_v76) = W8 m ρ c (Proc.devRef .tc main_v76)
  host_keep

theorem s4_w : W9 m ρ c (Proc.devRef .tc main_v77) = transpose S64x10 [1, 0] (W8 m ρ c (Proc.devRef .tc main_arg14)) transposes_S10x64_S64x10_1_0 := by
  show StableHlo.after hostOps4 (W8 m ρ c) (Proc.devRef .tc main_v77) = _
  after_results_simp
  try rfl

theorem s4_b : W9 m ρ c (Proc.devRef .tc main_v78) = shapeCast S1x10 (W8 m ρ c (Proc.devRef .tc main_arg15)) shapeCasts_S10_S1x10 := by
  show StableHlo.after hostOps4 (W8 m ρ c) (Proc.devRef .tc main_v78) = _
  after_results_simp
  try rfl

end Cert.KernelIdeal.Hand

end
-- ==== Proof.KCarry.lean ====
/-
  Buffers that ride through launches and host stretches untouched: the two index arrays and the reciprocal column, which
  are computed before the first launch and read by every later stretch, and each layer's arguments, which no operation
  and no launch writes. At every segment boundary where a later stretch reads one of them it still holds what it held
  after the first stretch (the three arrays) or at the program's start (the arguments).
-/
import proofs.«113997_j68616397521281_1_alg».proof.Proof.Gen.KernelIdeal.Frame
import Idealize.ShloMosaic.Lib.StableHlo.Run
import Idealize.ShloMosaic.PureOps.Ideal
import proofs.«113997_j68616397521281_1_alg».proof.Proof.KHostDefs

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem W2_v1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W4_v1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keep
    _ = W1 m ρ c (Proc.devRef .tc main_v1) := W2_of_ne m ρ c main_v1 (by decide)

theorem W6_v1 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by host_keep
    _ = W3 m ρ c (Proc.devRef .tc main_v1) := W4_of_ne m ρ c main_v1 (by decide)
    _ = W2 m ρ c (Proc.devRef .tc main_v1) := by host_keep
    _ = W1 m ρ c (Proc.devRef .tc main_v1) := W2_of_ne m ρ c main_v1 (by decide)

theorem W2_v3 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W4_v3 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keep
    _ = W1 m ρ c (Proc.devRef .tc main_v3) := W2_of_ne m ρ c main_v3 (by decide)

theorem W6_v3 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keep
    _ = W3 m ρ c (Proc.devRef .tc main_v3) := W4_of_ne m ρ c main_v3 (by decide)
    _ = W2 m ρ c (Proc.devRef .tc main_v3) := by host_keep
    _ = W1 m ρ c (Proc.devRef .tc main_v3) := W2_of_ne m ρ c main_v3 (by decide)

theorem W2_v12 : W2 m ρ c (Proc.devRef .tc main_v12) = W1 m ρ c (Proc.devRef .tc main_v12) :=
  calc W2 m ρ c (Proc.devRef .tc main_v12)
    _ = W1 m ρ c (Proc.devRef .tc main_v12) := W2_of_ne m ρ c main_v12 (by decide)

theorem W4_v12 : W4 m ρ c (Proc.devRef .tc main_v12) = W1 m ρ c (Proc.devRef .tc main_v12) :=
  calc W4 m ρ c (Proc.devRef .tc main_v12)
    _ = W3 m ρ c (Proc.devRef .tc main_v12) := W4_of_ne m ρ c main_v12 (by decide)
    _ = W2 m ρ c (Proc.devRef .tc main_v12) := by host_keep
    _ = W1 m ρ c (Proc.devRef .tc main_v12) := W2_of_ne m ρ c main_v12 (by decide)

theorem W6_v12 : W6 m ρ c (Proc.devRef .tc main_v12) = W1 m ρ c (Proc.devRef .tc main_v12) :=
  calc W6 m ρ c (Proc.devRef .tc main_v12)
    _ = W5 m ρ c (Proc.devRef .tc main_v12) := W6_of_ne m ρ c main_v12 (by decide)
    _ = W4 m ρ c (Proc.devRef .tc main_v12) := by host_keep
    _ = W3 m ρ c (Proc.devRef .tc main_v12) := W4_of_ne m ρ c main_v12 (by decide)
    _ = W2 m ρ c (Proc.devRef .tc main_v12) := by host_keep
    _ = W1 m ρ c (Proc.devRef .tc main_v12) := W2_of_ne m ρ c main_v12 (by decide)

theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keep
    _ = m ((c : Thread nD τ).loc main_arg5) := rfl

theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keep
    _ = m ((c : Thread nD τ).loc main_arg6) := rfl

theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_keep
    _ = m ((c : Thread nD τ).loc main_arg7) := rfl

theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keep
    _ = W1 m ρ c (Proc.devRef .tc main_arg8) := W2_of_ne m ρ c main_arg8 (by decide)
    _ = W0 m ρ c (Proc.devRef .tc main_arg8) := by host_keep
    _ = m ((c : Thread nD τ).loc main_arg8) := rfl

theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keep
    _ = W1 m ρ c (Proc.devRef .tc main_arg9) := W2_of_ne m ρ c main_arg9 (by decide)
    _ = W0 m ρ c (Proc.devRef .tc main_arg9) := by host_keep
    _ = m ((c : Thread nD τ).loc main_arg9) := rfl

theorem W4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by host_keep
    _ = W1 m ρ c (Proc.devRef .tc main_arg10) := W2_of_ne m ρ c main_arg10 (by decide)
    _ = W0 m ρ c (Proc.devRef .tc main_arg10) := by host_keep
    _ = m ((c : Thread nD τ).loc main_arg10) := rfl

theorem W6_arg11 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by host_keep
    _ = W3 m ρ c (Proc.devRef .tc main_arg11) := W4_of_ne m ρ c main_arg11 (by decide)
    _ = W2 m ρ c (Proc.devRef .tc main_arg11) := by host_keep
    _ = W1 m ρ c (Proc.devRef .tc main_arg11) := W2_of_ne m ρ c main_arg11 (by decide)
    _ = W0 m ρ c (Proc.devRef .tc main_arg11) := by host_keep
    _ = m ((c : Thread nD τ).loc main_arg11) := rfl

theorem W6_arg12 : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_keep
    _ = W3 m ρ c (Proc.devRef .tc main_arg12) := W4_of_ne m ρ c main_arg12 (by decide)
    _ = W2 m ρ c (Proc.devRef .tc main_arg12) := by host_keep
    _ = W1 m ρ c (Proc.devRef .tc main_arg12) := W2_of_ne m ρ c main_arg12 (by decide)
    _ = W0 m ρ c (Proc.devRef .tc main_arg12) := by host_keep
    _ = m ((c : Thread nD τ).loc main_arg12) := rfl

theorem W6_arg13 : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := by host_keep
    _ = W3 m ρ c (Proc.devRef .tc main_arg13) := W4_of_ne m ρ c main_arg13 (by decide)
    _ = W2 m ρ c (Proc.devRef .tc main_arg13) := by host_keep
    _ = W1 m ρ c (Proc.devRef .tc main_arg13) := W2_of_ne m ρ c main_arg13 (by decide)
    _ = W0 m ρ c (Proc.devRef .tc main_arg13) := by host_keep
    _ = m ((c : Thread nD τ).loc main_arg13) := rfl

theorem W8_arg14 : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := by host_keep
    _ = W5 m ρ c (Proc.devRef .tc main_arg14) := W6_of_ne m ρ c main_arg14 (by decide)
    _ = W4 m ρ c (Proc.devRef .tc main_arg14) := by host_keep
    _ = W3 m ρ c (Proc.devRef .tc main_arg14) := W4_of_ne m ρ c main_arg14 (by decide)
    _ = W2 m ρ c (Proc.devRef .tc main_arg14) := by host_keep
    _ = W1 m ρ c (Proc.devRef .tc main_arg14) := W2_of_ne m ρ c main_arg14 (by decide)
    _ = W0 m ρ c (Proc.devRef .tc main_arg14) := by host_keep
    _ = m ((c : Thread nD τ).loc main_arg14) := rfl

theorem W8_arg15 : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := by host_keep
    _ = W5 m ρ c (Proc.devRef .tc main_arg15) := W6_of_ne m ρ c main_arg15 (by decide)
    _ = W4 m ρ c (Proc.devRef .tc main_arg15) := by host_keep
    _ = W3 m ρ c (Proc.devRef .tc main_arg15) := W4_of_ne m ρ c main_arg15 (by decide)
    _ = W2 m ρ c (Proc.devRef .tc main_arg15) := by host_keep
    _ = W1 m ρ c (Proc.devRef .tc main_arg15) := W2_of_ne m ρ c main_arg15 (by decide)
    _ = W0 m ρ c (Proc.devRef .tc main_arg15) := by host_keep
    _ = m ((c : Thread nD τ).loc main_arg15) := rfl

end Cert.KernelIdeal.Hand

end
-- ==== Proof.KValue.lean ====
/-
  The network program's result, read off its segment boundaries. Each layer's launch leaves the layer of the arrays it
  finds; the host stretch before it leaves, in those arrays, the mean of the previous features, those features, the
  transposed weights and the bias row; nothing else the stretches read is ever overwritten. Chaining the five launches
  gives the result as four steps and a read-out of the arguments (`knetwork`). That function is the reference's
  `network`: the mean by reciprocal is the mean by division (the law on the extended reals proved beside the layer), and
  a 64-vector reshaped to a row is the same row as the vector broadcast into a row.
-/
import proofs.«113997_j68616397521281_1_alg».proof.Proof.Layer
import proofs.«113997_j68616397521281_1_alg».proof.Proof.KRegion0
import proofs.«113997_j68616397521281_1_alg».proof.Proof.KRegion1
import proofs.«113997_j68616397521281_1_alg».proof.Proof.KRegion2
import proofs.«113997_j68616397521281_1_alg».proof.Proof.KRegion3
import proofs.«113997_j68616397521281_1_alg».proof.Proof.KRegion4
import proofs.«113997_j68616397521281_1_alg».proof.Proof.KHost0
import proofs.«113997_j68616397521281_1_alg».proof.Proof.KHost1
import proofs.«113997_j68616397521281_1_alg».proof.Proof.KHost2
import proofs.«113997_j68616397521281_1_alg».proof.Proof.KHost3
import proofs.«113997_j68616397521281_1_alg».proof.Proof.KHost4
import proofs.«113997_j68616397521281_1_alg».proof.Proof.KCarry

set_option maxRecDepth 16384

noncomputable section

namespace Cert.KernelIdeal.Hand

open Cert.KernelIdeal Cert.KernelIdeal.Gen Idealize.ShloMosaic Idealize.ShloMosaic.TcCoe Idealize.SL.Sem

/-! ## The program's own spelling of a step and of the network -/

/-- One step as this program computes it: the mean by the reciprocal column, the weights transposed, the bias reshaped
    to a row. -/
def kstep (x : FVec Ideal S100000x64 .f32) (e : IVec S2x1250000 32) (wl wr : FVec Ideal S64x64 .f32) (b : FVec Ideal S64 .f32) :
    FVec Ideal S100000x64 .f32 :=
  Cert.Sage.layer (kmean x (srcK e) (dstK e) (invK e)) x
    (transpose S64x64 [1, 0] wl transposes_S64x64_S64x64_1_0) (transpose S64x64 [1, 0] wr transposes_S64x64_S64x64_1_0)
    (shapeCast S1x64 b shapeCasts_S64_S1x64)

/-- The four steps and the read-out. -/
def knetwork (x0 : FVec Ideal S100000x64 .f32) (e : IVec S2x1250000 32) (wl1 wr1 : FVec Ideal S64x64 .f32) (b1 : FVec Ideal S64 .f32)
    (wl2 wr2 : FVec Ideal S64x64 .f32) (b2 : FVec Ideal S64 .f32) (wl3 wr3 : FVec Ideal S64x64 .f32) (b3 : FVec Ideal S64 .f32)
    (wl4 wr4 : FVec Ideal S64x64 .f32) (b4 : FVec Ideal S64 .f32) (wlin : FVec Ideal S10x64 .f32) (blin : FVec Ideal S10 .f32) :
    FVec Ideal S100000x10 .f32 :=
  Cert.Sage.readout (kstep (kstep (kstep (kstep x0 e wl1 wr1 b1) e wl2 wr2 b2) e wl3 wr3 b3) e wl4 wr4 b4)
    (transpose S64x10 [1, 0] wlin transposes_S10x64_S64x10_1_0) (shapeCast S1x10 blin shapeCasts_S10_S1x10)

/-! ## The two spellings agree -/

open Cert.ReferenceIdeal.Read in
/-- The mean over the arrays computed from the edge list is the mean by reciprocal stated beside the layer: the same
    operations, spelled from the edge list. -/
theorem kmean_eq (x : FVec Ideal S100000x64 .f32) (e : IVec S2x1250000 32) :
    kmean x (srcK e) (dstK e) (invK e) = Cert.Sage.meanMul x e := by
  unfold kmean srcK dstK invK
  simp only [Cert.Sage.meanMul, val_main_v13, val_main_v12, val_main_v11, val_main_v10, val_main_v9, val_main_v8, val_main_v5,
    val_main_v7, val_main_v4, val_main_v6, val_main_v3, val_main_v2, val_main_v1, val_main_v0, val_main_cst, val_main_c, val_main_c_0,
    val_main_v18, val_main_cst_3, val_main_v17, val_main_v15, val_main_v16, val_main_v14, val_main_cst_1, val_main_cst_2]
  rfl

/-- A 64-vector reshaped to a 1×64 row is the vector broadcast into that row: both read entry `j 1`. -/
theorem row_eq (b : FVec Ideal S64 .f32) : shapeCast S1x64 b shapeCasts_S64_S1x64 = Cert.ReferenceIdeal.Read.val_main_v28 (F := Ideal) b := by
  funext j
  rw [Cert.ReferenceIdeal.Read.val_main_v28_apply]
  refine (shapeCast_addUnit_apply ![64] b _ j).trans ?_
  exact congrArg b (funext fun a => by match a with | ⟨0, _⟩ => exact Fin.ext rfl)

/-- The same for the read-out's 10-vector. -/
theorem row10_eq (b : FVec Ideal S10 .f32) : shapeCast S1x10 b shapeCasts_S10_S1x10 = Cert.ReferenceIdeal.Read.val_main_v118 (F := Ideal) b := by
  funext j
  rw [Cert.ReferenceIdeal.Read.val_main_v118_apply]
  refine (shapeCast_addUnit_apply ![10] b _ j).trans ?_
  exact congrArg b (funext fun a => by match a with | ⟨0, _⟩ => exact Fin.ext rfl)

/-- This program's step is the reference's. -/
theorem kstep_eq (x : FVec Ideal S100000x64 .f32) (e : IVec S2x1250000 32) (wl wr : FVec Ideal S64x64 .f32) (b : FVec Ideal S64 .f32) :
    kstep x e wl wr b = Cert.Sage.step x e wl wr b := by
  unfold kstep Cert.Sage.step
  rw [kmean_eq, Cert.Sage.meanMul_eq, row_eq]
  rfl

/-- This program's network is the reference's. -/
theorem knetwork_eq (x0 : FVec Ideal S100000x64 .f32) (e : IVec S2x1250000 32) (wl1 wr1 : FVec Ideal S64x64 .f32) (b1 : FVec Ideal S64 .f32)
    (wl2 wr2 : FVec Ideal S64x64 .f32) (b2 : FVec Ideal S64 .f32) (wl3 wr3 : FVec Ideal S64x64 .f32) (b3 : FVec Ideal S64 .f32)
    (wl4 wr4 : FVec Ideal S64x64 .f32) (b4 : FVec Ideal S64 .f32) (wlin : FVec Ideal S10x64 .f32) (blin : FVec Ideal S10 .f32) :
    knetwork x0 e wl1 wr1 b1 wl2 wr2 b2 wl3 wr3 b3 wl4 wr4 b4 wlin blin
      = Cert.Sage.network x0 e wl1 wr1 b1 wl2 wr2 b2 wl3 wr3 b3 wl4 wr4 b4 wlin blin := by
  unfold knetwork Cert.Sage.network
  rw [kstep_eq, kstep_eq, kstep_eq, kstep_eq, row10_eq]
  rfl

/-! ## The boundaries, one launch at a time -/

variable (m : (ℓ : Loc nD τ sig) → Buf (Elt Ideal) ℓ) (ρ : Dev nD → PrngReg) (c : Dev nD)

theorem W2_out : W2 m ρ c (Proc.devRef .tc main_v28) = kstep (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine (region0_value (V1 m ρ) c).trans ?_
  show Cert.Sage.layer (W1 m ρ c (Proc.devRef .tc main_v24)) (W1 m ρ c (Proc.devRef .tc main_arg0)) (W1 m ρ c (Proc.devRef .tc main_v25)) (W1 m ρ c (Proc.devRef .tc main_v26)) (W1 m ρ c (Proc.devRef .tc main_v27)) = _
  rw [s0_mean, s0_x, s0_wl, s0_wr, s0_b]
  rfl

theorem W4_out : W4 m ρ c (Proc.devRef .tc main_v44) = kstep (kstep (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  refine (W4_arr m ρ c 5).trans ?_
  refine (region1_value (V3 m ρ) c).trans ?_
  show Cert.Sage.layer (W3 m ρ c (Proc.devRef .tc main_v40)) (W3 m ρ c (Proc.devRef .tc main_v28)) (W3 m ρ c (Proc.devRef .tc main_v41)) (W3 m ρ c (Proc.devRef .tc main_v42)) (W3 m ρ c (Proc.devRef .tc main_v43)) = _
  rw [s1_mean, s1_x, s1_wl, s1_wr, s1_b, W2_v1, W2_v3, W2_v12, W2_arg5, W2_arg6, W2_arg7, s0_src, s0_dst, s0_inv, W2_out]
  rfl

theorem W6_out : W6 m ρ c (Proc.devRef .tc main_v60) = kstep (kstep (kstep (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) := by
  refine (W6_arr m ρ c 5).trans ?_
  refine (region2_value (V5 m ρ) c).trans ?_
  show Cert.Sage.layer (W5 m ρ c (Proc.devRef .tc main_v56)) (W5 m ρ c (Proc.devRef .tc main_v44)) (W5 m ρ c (Proc.devRef .tc main_v57)) (W5 m ρ c (Proc.devRef .tc main_v58)) (W5 m ρ c (Proc.devRef .tc main_v59)) = _
  rw [s2_mean, s2_x, s2_wl, s2_wr, s2_b, W4_v1, W4_v3, W4_v12, W4_arg8, W4_arg9, W4_arg10, s0_src, s0_dst, s0_inv, W4_out]
  rfl

theorem W8_out : W8 m ρ c (Proc.devRef .tc main_v76) = kstep (kstep (kstep (kstep (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) (m ((c : Thread nD τ).loc main_arg1)) (m ((c : Thread nD τ).loc main_arg11)) (m ((c : Thread nD τ).loc main_arg12)) (m ((c : Thread nD τ).loc main_arg13)) := by
  refine (W8_arr m ρ c 5).trans ?_
  refine (region3_value (V7 m ρ) c).trans ?_
  show Cert.Sage.layer (W7 m ρ c (Proc.devRef .tc main_v72)) (W7 m ρ c (Proc.devRef .tc main_v60)) (W7 m ρ c (Proc.devRef .tc main_v73)) (W7 m ρ c (Proc.devRef .tc main_v74)) (W7 m ρ c (Proc.devRef .tc main_v75)) = _
  rw [s3_mean, s3_x, s3_wl, s3_wr, s3_b, W6_v1, W6_v3, W6_v12, W6_arg11, W6_arg12, W6_arg13, s0_src, s0_dst, s0_inv, W6_out]
  rfl

/-- THE RESULT: the result's buffer at the last boundary is the network of the arguments. -/
theorem W10_out : W10 m ρ c (Proc.devRef .tc main_v79) = knetwork (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W10_arr m ρ c 3).trans ?_
  refine (region4_value (V9 m ρ) c).trans ?_
  show Cert.Sage.readout (W9 m ρ c (Proc.devRef .tc main_v76)) (W9 m ρ c (Proc.devRef .tc main_v77)) (W9 m ρ c (Proc.devRef .tc main_v78)) = _
  rw [s4_x, s4_w, s4_b, W8_arg14, W8_arg15, W8_out]
  rfl

end Cert.KernelIdeal.Hand

end
-- ==== Proof.lean ====
/-
  The network program against its reference, on the extended reals.

  Both programs compute four mean-aggregating graph layers and a linear read-out of 100000 nodes. They gather and
  scatter-add along the same edge list with the same host operations; they differ in how the mean is normalised (a
  product with the reciprocal of `max count 1`, computed once, against a quotient by `max count 1`, computed per
  layer), in where the weights are transposed and the bias is made a row, and in that one of them runs each layer's
  two products, bias and rectifier blockwise, ten row blocks per layer. On the extended reals the reciprocal and the
  quotient agree because the divisor is at least one; blocks of one function tile to the function; a product read at
  an entry is the same sum in both. The programs' frames (termination, no fault, arguments unchanged) are the generated
  ones; the idealized program was printed from the original without any rewrite, so the preservation claim is empty.
-/
import proofs.«113997_j68616397521281_1_alg».proof.Defs
import proofs.«113997_j68616397521281_1_alg».proof.Proof.Gen.Kernel
import proofs.«113997_j68616397521281_1_alg».proof.Proof.Gen.Kernel.Frame
import proofs.«113997_j68616397521281_1_alg».proof.Proof.Gen.KernelIdeal
import proofs.«113997_j68616397521281_1_alg».proof.Proof.Gen.KernelIdeal.Frame
import proofs.«113997_j68616397521281_1_alg».proof.Proof.Gen.ReferenceIdeal
import proofs.«113997_j68616397521281_1_alg».proof.Proof.Gen.ReferenceIdeal.Run
import proofs.«113997_j68616397521281_1_alg».proof.Proof.Gen.ReferenceIdeal.Read
import proofs.«113997_j68616397521281_1_alg».proof.Proof.Gen.Pre_finite_inputs
import proofs.«113997_j68616397521281_1_alg».proof.Proof.Layer
import proofs.«113997_j68616397521281_1_alg».proof.Proof.KRun
import proofs.«113997_j68616397521281_1_alg».proof.Proof.KValue
import Idealize.ShloMosaic.Adequacy
import Idealize.ShloMosaic.Init

set_option maxRecDepth 16384

noncomputable section

namespace Cert.Proof

open Idealize.ShloMosaic Idealize.SL.Sem

/-- The three frames: the two kernel programs' generated frames, and the reference's generated run with its result
    forgotten. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the network of the arguments in their result. -/
theorem algebraic : Cert.algebraic_KernelIdeal_ReferenceIdeal := by
  intro m ρ m' ρ' _ hagree
  refine ⟨fun c => Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans ((Cert.KernelIdeal.Hand.W10_out m ρ c).trans (Cert.KernelIdeal.Hand.knetwork_eq _ _ _ _ _ _ _ _ _ _ _ _ _ _ _ _)), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v120_eq, Cert.Sage.ref_network, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
